-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S500000x256 : Shape := ⟨2, ![500000, 256]⟩
abbrev S256x256 : Shape := ⟨2, ![256, 256]⟩
abbrev S256 : Shape := ⟨1, ![256]⟩
abbrev S2x500000 : Shape := ⟨2, ![2, 500000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500000x256 : S_.BroadcastsInDim S500000x256 (![] : Fin 0 → Fin S500000x256.rank)
  reducesTo_S500000x256_S_d0_1 : S500000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_arg9 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x256 .f32) (main_arg1 : FVec F S500000x256 .f32) (main_arg2 : FVec F S256x256 .f32) (main_arg3 : FVec F S256 .f32) (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : IVec S2x500000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S500000x256 .f32 := Host.absf main_arg1
  let main_cst_0 : FVec F S_ .f32 := constant S_ .f32 0x7F800000#32
  let main_v5 : FVec F S500000x256 .f32 := broadcastInDim S500000x256 ![] bcast_S_S500000x256 main_cst_0
  let main_v6 : IVec S500000x256 1 := cmpf .olt main_v4 main_v5
  let main_c_1 : IVec S_ 1 := constantI S_ 1 1#1
  let main_v7 : IVec S_ 1 := (fun x v => Host.reduce IntOp.andi x v reducesTo_S500000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S50000x256 : Shape := ⟨2, ![50000, 256]⟩
abbrev S500000x256 : Shape := ⟨2, ![500000, 256]⟩
abbrev S256x256 : Shape := ⟨2, ![256, 256]⟩
abbrev S256 : Shape := ⟨1, ![256]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S1x256 : Shape := ⟨2, ![1, 256]⟩
abbrev S1000x256 : Shape := ⟨2, ![1000, 256]⟩
abbrev S1000x1 : Shape := ⟨2, ![1000, 1]⟩

abbrev nBuf : Space → Nat
  | .hbm => 69
  | .vmem => 32
  | .smem => 0
  | _ => 0

abbrev bufTy : (tb : Table) → Fin (tcTables nBuf tb) → BufTy
  | .hbm, ⟨0, _⟩ => ⟨S50000x256, .f32⟩
  | .hbm, ⟨1, _⟩ => ⟨S500000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S2x500000, .i32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .f32⟩
  | .hbm, ⟨16, _⟩ => ⟨S500000, .f32⟩
  | .hbm, ⟨17, _⟩ => ⟨S_, .f32⟩
  | .hbm, ⟨18, _⟩ => ⟨S50000, .f32⟩
  | .hbm, ⟨19, _⟩ => ⟨S500000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .f32⟩
  | .hbm, ⟨29, _⟩ => ⟨S50000x256, .f32⟩
  | .hbm, ⟨30, _⟩ => ⟨S500000x1, .i32⟩
  | .hbm, ⟨31, _⟩ => ⟨S50000x256, .f32⟩
  | .hbm, ⟨32, _⟩ => ⟨S256x256, .bf16⟩
  | .hbm, ⟨33, _⟩ => ⟨S1x256, .f32⟩
  | .hbm, ⟨34, _⟩ => ⟨S50000x256, .f32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x256, .f32⟩
  | .hbm, ⟨44, _⟩ => ⟨S_, .f32⟩
  | .hbm, ⟨45, _⟩ => ⟨S50000x256, .f32⟩
  | .hbm, ⟨46, _⟩ => ⟨S500000x1, .i32⟩
  | .hbm, ⟨47, _⟩ => ⟨S50000x256, .f32⟩
  | .hbm, ⟨48, _⟩ => ⟨S256x256, .bf16⟩
  | .hbm, ⟨49, _⟩ => ⟨S256x256, .bf16⟩
  | .hbm, ⟨50, _⟩ => ⟨S1x256, .f32⟩
  | .hbm, ⟨51, _⟩ => ⟨S50000x256, .f32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000x256, .f32⟩
  | .hbm, ⟨61, _⟩ => ⟨S_, .f32⟩
  | .hbm, ⟨62, _⟩ => ⟨S50000x256, .f32⟩
  | .hbm, ⟨63, _⟩ => ⟨S500000x1, .i32⟩
  | .hbm, ⟨64, _⟩ => ⟨S50000x256, .f32⟩
  | .hbm, ⟨65, _⟩ => ⟨S256x256, .bf16⟩
  | .hbm, ⟨66, _⟩ => ⟨S256x256, .bf16⟩
  | .hbm, ⟨67, _⟩ => ⟨S1x256, .f32⟩
  | .hbm, ⟨68, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1000x1, .f32⟩
  | .local _ .vmem, ⟨5, _⟩ => ⟨S1000x1, .f32⟩
  | .local _ .vmem, ⟨6, _⟩ => ⟨S256x256, .bf16⟩
  | .local _ .vmem, ⟨7, _⟩ => ⟨S1x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x1, .f32⟩
  | .local _ .vmem, ⟨13, _⟩ => ⟨S1000x1, .f32⟩
  | .local _ .vmem, ⟨14, _⟩ => ⟨S1000x256, .f32⟩
  | .local _ .vmem, ⟨15, _⟩ => ⟨S1000x256, .f32⟩
  | .local _ .vmem, ⟨16, _⟩ => ⟨S256x256, .bf16⟩
  | .local _ .vmem, ⟨17, _⟩ => ⟨S1x256, .f32⟩
  | .local _ .vmem, ⟨18, _⟩ => ⟨S256x256, .bf16⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S1000x1, .f32⟩
  | .local _ .vmem, ⟨24, _⟩ => ⟨S1000x1, .f32⟩
  | .local _ .vmem, ⟨25, _⟩ => ⟨S1000x256, .f32⟩
  | .local _ .vmem, ⟨26, _⟩ => ⟨S1000x256, .f32⟩
  | .local _ .vmem, ⟨27, _⟩ => ⟨S256x256, .bf16⟩
  | .local _ .vmem, ⟨28, _⟩ => ⟨S1x256, .f32⟩
  | .local _ .vmem, ⟨29, _⟩ => ⟨S256x256, .bf16⟩
  | .local _ .vmem, ⟨30, _⟩ => ⟨S1000x256, .f32⟩
  | .local _ .vmem, ⟨31, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_cst : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_cst_2 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c : Ref sig .tc := ⟨.hbm, 35, rfl⟩
abbrev main_call0_v19 : Ref sig .tc := ⟨.hbm, 36, rfl⟩
abbrev main_call0_v20 : Ref sig .tc := ⟨.hbm, 37, rfl⟩
abbrev main_call0_c_4 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_cst_5 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_c_6 : Ref sig .tc := ⟨.hbm, 52, rfl⟩
abbrev main_call0_v33 : Ref sig .tc := ⟨.hbm, 53, rfl⟩
abbrev main_call0_v34 : Ref sig .tc := ⟨.hbm, 54, rfl⟩
abbrev main_call0_c_7 : Ref sig .tc := ⟨.hbm, 55, rfl⟩
abbrev main_call0_v35 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_cst_8 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_v0_0 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  shapeCasts_S50000_S50000x1 : S50000.ShapeCasts S50000x1
  bcast_S_S50000x256 : S_.BroadcastsInDim S50000x256 (![] : Fin 0 → Fin S50000x256.rank)
  bitsLt_bf16_f32 : FTy.bits .bf16 < FTy.bits .f32
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  scatter_S50000_S500000x1_S500000_n_0_0_1_wf : ScatterDims.WF S50000 S500000x1 S500000 [] [0] [0] 1
  scatter_S50000x256_S500000x1_S500000x256_1_0_0_1_wf : ScatterDims.WF S50000x256 S500000x1 S500000x256 [1] [0] [0] 1
  gather_S50000x256_S500000x1_S500000x256_1_0_n_n_0_1_1256_wf : GatherDims.WF S50000x256 S500000x1 S500000x256 [1] [0] [] [0] [] 1 ![1, 256]
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S50000x256.size a
  hwx0_1 : ∀ i : grid0.Coords, EltTy.bits .f32 = 32 ∨ (Rect.block (s := S50000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S50000x256.size a
  hwx1_6 : ∀ i : grid1.Coords, EltTy.bits .f32 = 32 ∨ (Rect.block (s := S50000x256) S1000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .f32 = 32 ∨ (Rect.block (s := S50000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S50000x256.size a
  hwx2_2 : ∀ i : grid2.Coords, EltTy.bits .f32 = 32 ∨ (Rect.block (s := S50000x256) S1000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x256.size a ≤ S50000x256.size a
  hwx2_6 : ∀ i : grid2.Coords, EltTy.bits .f32 = 32 ∨ (Rect.block (s := S50000x256) S1000x256.size (cc2_transform_6 i) (hinb2_6 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v18) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v28) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v18) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v29) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v31) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v30) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v32) S1000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v42) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v12) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v32) S1000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v43) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v45) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v44) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v0_0) S1000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S500000x256 : Shape := ⟨2, ![500000, 256]⟩
abbrev S256x256 : Shape := ⟨2, ![256, 256]⟩
abbrev S256 : Shape := ⟨1, ![256]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000 : Shape := ⟨1, ![50000]⟩
abbrev S50000x1 : Shape := ⟨2, ![50000, 1]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S500000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S2x500000, .i32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .f32⟩
  | .hbm, ⟨16, _⟩ => ⟨S50000x256, .f32⟩
  | .hbm, ⟨17, _⟩ => ⟨S500000x1, .i32⟩
  | .hbm, ⟨18, _⟩ => ⟨S50000x256, .f32⟩
  | .hbm, ⟨19, _⟩ => ⟨S_, .f32⟩
  | .hbm, ⟨20, _⟩ => ⟨S500000, .f32⟩
  | .hbm, ⟨21, _⟩ => ⟨S_, .f32⟩
  | .hbm, ⟨22, _⟩ => ⟨S50000, .f32⟩
  | .hbm, ⟨23, _⟩ => ⟨S500000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S50000x256, .f32⟩
  | .hbm, ⟨33, _⟩ => ⟨S1x256, .f32⟩
  | .hbm, ⟨34, _⟩ => ⟨S50000x256, .f32⟩
  | .hbm, ⟨35, _⟩ => ⟨S50000x256, .f32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x256, .f32⟩
  | .hbm, ⟨45, _⟩ => ⟨S_, .f32⟩
  | .hbm, ⟨46, _⟩ => ⟨S50000x256, .f32⟩
  | .hbm, ⟨47, _⟩ => ⟨S500000x1, .i32⟩
  | .hbm, ⟨48, _⟩ => ⟨S50000x256, .f32⟩
  | .hbm, ⟨49, _⟩ => ⟨S_, .f32⟩
  | .hbm, ⟨50, _⟩ => ⟨S500000, .f32⟩
  | .hbm, ⟨51, _⟩ => ⟨S_, .f32⟩
  | .hbm, ⟨52, _⟩ => ⟨S50000, .f32⟩
  | .hbm, ⟨53, _⟩ => ⟨S500000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S500000, .i32⟩
  | .hbm, ⟨72, _⟩ => ⟨S500000, .i1⟩
  | .hbm, ⟨73, _⟩ => ⟨S_, .i32⟩
  | .hbm, ⟨74, _⟩ => ⟨S500000, .i32⟩
  | .hbm, ⟨75, _⟩ => ⟨S500000, .i32⟩
  | .hbm, ⟨76, _⟩ => ⟨S500000, .i32⟩
  | .hbm, ⟨77, _⟩ => ⟨S500000x1, .i32⟩
  | .hbm, ⟨78, _⟩ => ⟨S500000x256, .f32⟩
  | .hbm, ⟨79, _⟩ => ⟨S_, .f32⟩
  | .hbm, ⟨80, _⟩ => ⟨S50000x256, .f32⟩
  | .hbm, ⟨81, _⟩ => ⟨S500000x1, .i32⟩
  | .hbm, ⟨82, _⟩ => ⟨S50000x256, .f32⟩
  | .hbm, ⟨83, _⟩ => ⟨S_, .f32⟩
  | .hbm, ⟨84, _⟩ => ⟨S500000, .f32⟩
  | .hbm, ⟨85, _⟩ => ⟨S_, .f32⟩
  | .hbm, ⟨86, _⟩ => ⟨S50000, .f32⟩
  | .hbm, ⟨87, _⟩ => ⟨S500000x1, .i32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S1x256, .f32⟩
  | .hbm, ⟨97, _⟩ => ⟨S50000x256, .f32⟩
  | .hbm, ⟨98, _⟩ => ⟨S50000x256, .f32⟩
  | .hbm, ⟨99, _⟩ => ⟨S50000x256, .f32⟩
  | .hbm, ⟨100, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000x256 : S_.BroadcastsInDim S50000x256 (![] : Fin 0 → Fin S50000x256.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S50000x256_S256x256_S50000x256_1_0_0_1_n_n_wf : DotDims.WF S50000x256 S256x256 S50000x256 [1] [0] [0] [1] [] []
  gather_S50000x256_S500000x1_S500000x256_1_0_n_n_0_1_1256_wf : GatherDims.WF S50000x256 S500000x1 S500000x256 [1] [0] [] [0] [] 1 ![1, 256]

variable [Facts₀]

def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf

class Facts : Prop extends Facts₀ where

variable [Facts]
-- ==== Proof.KernelRun.lean ====
/-
  The idealized kernel's run with its result named.

  The program is three tiled regions among stretches of host operations. Every weakly fair execution terminates
  without a fault; at the end every buffer that lives across the whole program holds what the last boundary of the
  fold through the program gives it (`W6`): the arguments what they held at launch, the result buffer what the third
  region's write-backs leave. This is the frame run with one more buffer read off the final thread state.
-/
import proofs.«153122_j36988258353722_2_alg».proof.Proof.KernelIdealFrameP

set_option maxRecDepth 16384

noncomputable section

namespace Cert.KernelRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_result : θ_run defs (onTc (τ := τ) (main (F := F))) ⟨m, fun _ => 0, ρ⟩ (fun r => ∀ c : Dev nD,
      r.2.mem ((c.tc : Thread nD τ).loc main_v0_0) = W6 m ρ c (Proc.devRef .tc main_v0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelRun

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«153122_j36988258353722_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.TileValue.lean ====
/-
  One tile of each layer, entry by entry, at the exact values.

  A tile is a block of 1000 consecutive node rows. Each kernel body maps its loaded blocks to one stored block; read
  at the entry (p, q) of the block — p the row inside the tile, q the output feature — the stored value is a sum over
  the 256 input features k of products with a weight matrix, plus a bias that depends on q only:

    node update :  Σ_k (x[p,k] + e[p,k] · r[p]) · W[k,q]  +  b[q]
    SAGE layer  :  Σ_k (a[p,k] · r[p]) · Wl[k,q]  +  Σ_k x[p,k] · Wr[k,q]  +  bl[q]        (then max(·, 0) in layer 1)

  where r is the tile's column of reciprocal degrees, repeated along the row. Over the extended reals the roundings to
  bf16 on the way into the products are the identity and a product accumulated into a zero tile is the plain sum.
-/
import proofs.«153122_j36988258353722_2_alg».proof.Proof.Gen.KernelIdeal.Skeleton
import proofs.«153122_j36988258353722_2_alg».proof.Proof.LibDotSums
import proofs.«153122_j36988258353722_2_alg».proof.Proof.LibColumnLayout
import Idealize.ShloMosaic.Lib.ValueLayout
import Idealize.ShloMosaic.Lib.ValueIdx
import Idealize.ShloMosaic.Lib.Pipeline.Value
import Idealize.ShloMosaic.PureOps.Ideal.Laws

open scoped BigOperators

noncomputable section

namespace Cert.Tile

open Cert.KernelIdeal Cert.KernelIdeal.Gen Idealize.ShloMosaic Idealize.ShloMosaic.ValueIdx

/-- The tile product into a zero accumulator at (p, q): the sum along row p of the left block and column q of the
    weights. -/
theorem tileDot (x : FVec Ideal S1000x256 .bf16) (w : FVec Ideal S256x256 .bf16) (p : Fin 1000) (q : Fin 256) :
    matmul dot_S1000x256_S256x256_S1000x256_1_0_0_1_n_n none x w (constant S1000x256 .f32 0x00000000#32) (ix2 p q)
      = ∑ k : Fin 256, (x (ix2 p k) : EReal) * (w (ix2 k q) : EReal) :=
  Cert.DotSums.matmul_zero_ix2 dot_S1000x256_S256x256_S1000x256_1_0_0_1_n_n none rfl rfl rfl rfl rfl rfl rfl rfl x w p q

/-- The node-update tile at (p, q). -/
theorem updateTile_apply (v0 : Vec Ideal S1000x256 .f32) (v2 : Vec Ideal S1000x1 .f32) (v6 : Vec Ideal S1000x256 .f32)
    (v9 : Vec Ideal S256x256 .bf16) (v12 : Vec Ideal S1x256 .f32) (p : Fin 1000) (q : Fin 256) :
    k0_pay1 v0 v2 v6 v9 v12 (ix2 p q)
      = (∑ k : Fin 256, ((v6 (ix2 p k) : EReal) + (v0 (ix2 p k) : EReal) * (v2 (ix2 p (0 : Fin 1)) : EReal)) * (v9 (ix2 k q) : EReal))
        + (v12 (ix2 (0 : Fin 1) q) : EReal) := by
  unfold k0_pay1
  simp only [shapeCast_self, addf_apply, tileDot, truncf_apply, mulf_apply,
    Cert.ColumnLayout.broadcastTo_a1_ab_apply, broadcastTo_1b_ab_apply]

/-- The first SAGE layer's tile at (p, q): the two products and the bias, then the positive part. -/
theorem sageReluTile_apply (v0 : Vec Ideal S1000x256 .f32) (v2 : Vec Ideal S1000x1 .f32) (v7 : Vec Ideal S1000x256 .f32)
    (v10 : Vec Ideal S256x256 .bf16) (v13 : Vec Ideal S256x256 .bf16) (v17 : Vec Ideal S1x256 .f32) (p : Fin 1000) (q : Fin 256) :
    k1_pay1 v0 v2 v7 v10 v13 v17 (ix2 p q)
      = max (((∑ k : Fin 256, ((v0 (ix2 p k) : EReal) * (v2 (ix2 p (0 : Fin 1)) : EReal)) * (v10 (ix2 k q) : EReal))
          + ∑ k : Fin 256, (v7 (ix2 p k) : EReal) * (v13 (ix2 k q) : EReal))
          + (v17 (ix2 (0 : Fin 1) q) : EReal)) (Ideal.ofBits .f32 0x00000000#32) := by
  unfold k1_pay1
  simp only [shapeCast_self, addf_apply, tileDot, truncf_apply, mulf_apply, maximumf_apply, broadcast_apply,
    Cert.ColumnLayout.broadcastTo_a1_ab_apply, broadcastTo_1b_ab_apply]
  rfl

/-- The second SAGE layer's tile at (p, q): the two products and the bias. -/
theorem sageTile_apply (v0 : Vec Ideal S1000x256 .f32) (v2 : Vec Ideal S1000x1 .f32) (v7 : Vec Ideal S1000x256 .f32)
    (v10 : Vec Ideal S256x256 .bf16) (v13 : Vec Ideal S256x256 .bf16) (v17 : Vec Ideal S1x256 .f32) (p : Fin 1000) (q : Fin 256) :
    k2_pay1 v0 v2 v7 v10 v13 v17 (ix2 p q)
      = ((∑ k : Fin 256, ((v0 (ix2 p k) : EReal) * (v2 (ix2 p (0 : Fin 1)) : EReal)) * (v10 (ix2 k q) : EReal))
          + ∑ k : Fin 256, (v7 (ix2 p k) : EReal) * (v13 (ix2 k q) : EReal))
          + (v17 (ix2 (0 : Fin 1) q) : EReal) := by
  unfold k2_pay1
  simp only [shapeCast_self, addf_apply, tileDot, truncf_apply, mulf_apply,
    Cert.ColumnLayout.broadcastTo_a1_ab_apply, broadcastTo_1b_ab_apply]

end Cert.Tile

end
-- ==== Proof.LayerFns.lean ====
/-
  The three layers as functions of whole arrays, entry by entry.

  N = 50000 nodes, 256 features. For a node i and an output feature j (k runs over the 256 input features):

    nodeUpdate x e r W b  (i, j) =  Σ_k (x[i,k] + e[i,k] · r[i]) · W[k,j]  +  b[j]
    sage a r x Wl bl Wr   (i, j) =  Σ_k (a[i,k] · r[i]) · Wl[k,j]  +  Σ_k x[i,k] · Wr[k,j]  +  bl[j]
    sageRelu …            (i, j) =  max (sage … (i, j)) 0

  r is a column [N, 1] (one number per node), b and bl are rows [1, 256]. Nothing here is a program: these are the
  specifications both programs are compared with.
-/
import Idealize.ShloMosaic.Lib.ValueIdx
import Idealize.ShloMosaic.PureOps.Ideal

open scoped BigOperators

noncomputable section

namespace Cert.Layers

open Idealize.ShloMosaic Idealize.ShloMosaic.ValueIdx

abbrev NodeFeat : Shape := ⟨2, ![50000, 256]⟩
abbrev NodeCol : Shape := ⟨2, ![50000, 1]⟩
abbrev Weights : Shape := ⟨2, ![256, 256]⟩
abbrev BiasRow : Shape := ⟨2, ![1, 256]⟩

/-- The node update: each node's features plus its scaled edge sum, through the weights, plus the bias. -/
def nodeUpdate (x e : NodeFeat.Idx → EReal) (r : NodeCol.Idx → EReal) (W : Weights.Idx → EReal) (b : BiasRow.Idx → EReal) :
    NodeFeat.Idx → EReal := fun i =>
  (∑ k : Fin 256, (x (ix2 (n0 := 50000) (i 0) k) + e (ix2 (n0 := 50000) (i 0) k) * r (ix2 (n0 := 50000) (i 0) (0 : Fin 1)))
      * W (ix2 k (n1 := 256) (i 1)))
    + b (ix2 (0 : Fin 1) (n1 := 256) (i 1))

/-- A SAGE layer: the scaled neighbour sum through the neighbour weights, the node's own features through the root
    weights, and the bias. -/
def sage (a : NodeFeat.Idx → EReal) (r : NodeCol.Idx → EReal) (x : NodeFeat.Idx → EReal) (Wl : Weights.Idx → EReal)
    (bl : BiasRow.Idx → EReal) (Wr : Weights.Idx → EReal) : NodeFeat.Idx → EReal := fun i =>
  ((∑ k : Fin 256, (a (ix2 (n0 := 50000) (i 0) k) * r (ix2 (n0 := 50000) (i 0) (0 : Fin 1))) * Wl (ix2 k (n1 := 256) (i 1)))
      + ∑ k : Fin 256, x (ix2 (n0 := 50000) (i 0) k) * Wr (ix2 k (n1 := 256) (i 1)))
    + bl (ix2 (0 : Fin 1) (n1 := 256) (i 1))

/-- A SAGE layer followed by the positive part. -/
def sageRelu (a : NodeFeat.Idx → EReal) (r : NodeCol.Idx → EReal) (x : NodeFeat.Idx → EReal) (Wl : Weights.Idx → EReal)
    (bl : BiasRow.Idx → EReal) (Wr : Weights.Idx → EReal) : NodeFeat.Idx → EReal := fun i =>
  max (sage a r x Wl bl Wr i) (Ideal.ofBits .f32 0x00000000#32)

theorem nodeUpdate_ix2 (x e : NodeFeat.Idx → EReal) (r : NodeCol.Idx → EReal) (W : Weights.Idx → EReal) (b : BiasRow.Idx → EReal)
    (p : Fin 50000) (q : Fin 256) :
    nodeUpdate x e r W b (ix2 p q)
      = (∑ k : Fin 256, (x (ix2 p k) + e (ix2 p k) * r (ix2 p (0 : Fin 1))) * W (ix2 k q)) + b (ix2 (0 : Fin 1) q) := rfl

theorem sage_ix2 (a : NodeFeat.Idx → EReal) (r : NodeCol.Idx → EReal) (x : NodeFeat.Idx → EReal) (Wl : Weights.Idx → EReal)
    (bl : BiasRow.Idx → EReal) (Wr : Weights.Idx → EReal) (p : Fin 50000) (q : Fin 256) :
    sage a r x Wl bl Wr (ix2 p q)
      = ((∑ k : Fin 256, (a (ix2 p k) * r (ix2 p (0 : Fin 1))) * Wl (ix2 k q)) + ∑ k : Fin 256, x (ix2 p k) * Wr (ix2 k q))
        + bl (ix2 (0 : Fin 1) q) := rfl

theorem sageRelu_ix2 (a : NodeFeat.Idx → EReal) (r : NodeCol.Idx → EReal) (x : NodeFeat.Idx → EReal) (Wl : Weights.Idx → EReal)
    (bl : BiasRow.Idx → EReal) (Wr : Weights.Idx → EReal) (p : Fin 50000) (q : Fin 256) :
    sageRelu a r x Wl bl Wr (ix2 p q)
      = max (((∑ k : Fin 256, (a (ix2 p k) * r (ix2 p (0 : Fin 1))) * Wl (ix2 k q)) + ∑ k : Fin 256, x (ix2 p k) * Wr (ix2 k q))
        + bl (ix2 (0 : Fin 1) q)) (Ideal.ofBits .f32 0x00000000#32) := rfl

end Cert.Layers

end
-- ==== Proof.Region0.lean ====
/-
  The first region (the node update) as a function of whole arrays.

  The region runs the node-update body once per tile of 1000 node rows (50 tiles). Each tile reads rows
  1000 t … 1000 t + 999 of the node features, of the edge sums and of the reciprocal-degree column, and the whole weight
  matrix and bias row; it writes the same rows of the result. Since the tiles partition the 50000 rows, the result array
  is the layer function `Cert.Layers.nodeUpdate` of the arrays the region was entered with — whatever those are.
-/
import proofs.«153122_j36988258353722_2_alg».proof.Proof.KernelIdealFrameP
import proofs.«153122_j36988258353722_2_alg».proof.Proof.TileValue
import proofs.«153122_j36988258353722_2_alg».proof.Proof.LayerFns

open scoped BigOperators

noncomputable section

namespace Cert.Region0

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the row-tiled windows at block row `t`, the weights and the
    bias at their one block (decided over the 50 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := by
  have h := t.isLt
  have e : cfg0.N = 50 := N_0
  omega

/-- Row `p` of tile `t` is node `1000 t + p`. -/
def rowOf (t : Fin cfg0.N) (p : Fin 1000) : Fin 50000 := ⟨t.val * 1000 + p.val, by
  have := point_lt t; have := p.isLt; omega⟩

/-- WHAT POINT `t` WRITES BACK is tile `t` of the layer's function of the arrays the region finds. -/
theorem flushed_eq (c : Dev nD) (t : Fin cfg0.N) :
    (dat0 V c).flushed 5 t = ((cfg0.win 5).blk t).view.read (Elt Ideal)
      (Cert.Layers.nodeUpdate (V c main_arg0) (V c main_call0_v15) (V c main_call0_v12) (V c main_call0_v16) (V c main_call0_v17)) := by
  show (cfg0.win 5).cut (grid0.coords t) ((dat0 V c).after 5 t) = _
  rw [after0_5]
  unfold out0_5
  rw [View.canon_unit_zero hz]
  simp only [View.ld_unit_zero (S := S1000x256) hz, View.ld_unit_zero (S := S1000x1) hz, View.ld_unit_zero (S := S256x256) hz, View.ld_unit_zero (S := S1x256) hz]
  obtain ⟨e00, e01, e10, e11, e20, e21, e30, e31, e40, e41, eo0, eo1⟩ := idx_facts t
  funext j
  obtain ⟨p, q, rfl⟩ : ∃ (p : Fin 1000) (q : Fin 256), j = ix2 p q := ⟨j 0, j 1, eq_ix2 j⟩
  show k0_pay1 (iblk0 V c 1 t) (iblk0 V c 2 t) (iblk0 V c 0 t) (iblk0 V c 3 t) (iblk0 V c 4 t) (ix2 p q)
    = Cert.Layers.nodeUpdate (V c main_arg0) (V c main_call0_v15) (V c main_call0_v12) (V c main_call0_v16) (V c main_call0_v17) (((cfg0.win 5).blk t).view.emb (ix2 p q))
  refine (Cert.Tile.updateTile_apply _ _ _ _ _ p q).trans ?_
  have ho : ((cfg0.win 5).blk t).view.emb (ix2 p q) = ix2 (rowOf t p) q := funext fun a => Fin.ext (by
    match a with
    | ⟨0, _⟩ => show win0_5.index t (0 : Fin 2) * 1000 + 1 * p.val = t.val * 1000 + p.val; omega
    | ⟨1, _⟩ => show win0_5.index t (1 : Fin 2) * 256 + 1 * q.val = q.val; omega)
  have r0 : ∀ k : Fin 256, iblk0 V c 0 t (ix2 p k) = V c main_arg0 (ix2 (rowOf t p) k) := fun k => by
    show V c main_arg0 (((cfg0.win 0).blk t).view.emb (ix2 p k)) = _
    refine congrArg (V c main_arg0) (funext fun a => Fin.ext ?_)
    match a with
    | ⟨0, _⟩ => show win0_0.index t (0 : Fin 2) * 1000 + 1 * p.val = t.val * 1000 + p.val; omega
    | ⟨1, _⟩ => show win0_0.index t (1 : Fin 2) * 256 + 1 * k.val = k.val; omega
  have r1 : ∀ k : Fin 256, iblk0 V c 1 t (ix2 p k) = V c main_call0_v15 (ix2 (rowOf t p) k) := fun k => by
    show V c main_call0_v15 (((cfg0.win 1).blk t).view.emb (ix2 p k)) = _
    refine congrArg (V c main_call0_v15) (funext fun a => Fin.ext ?_)
    match a with
    | ⟨0, _⟩ => show win0_1.index t (0 : Fin 2) * 1000 + 1 * p.val = t.val * 1000 + p.val; omega
    | ⟨1, _⟩ => show win0_1.index t (1 : Fin 2) * 256 + 1 * k.val = k.val; omega
  have r2 : iblk0 V c 2 t (ix2 p (0 : Fin 1)) = V c main_call0_v12 (ix2 (rowOf t p) (0 : Fin 1)) := by
    show V c main_call0_v12 (((cfg0.win 2).blk t).view.emb (ix2 p (0 : Fin 1))) = _
    refine congrArg (V c main_call0_v12) (funext fun a => Fin.ext ?_)
    match a with
    | ⟨0, _⟩ => show win0_2.index t (0 : Fin 2) * 1000 + 1 * p.val = t.val * 1000 + p.val; omega
    | ⟨1, _⟩ => show win0_2.index t (1 : Fin 2) * 1 + 1 * 0 = 0; omega
  have r3 : ∀ k : Fin 256, iblk0 V c 3 t (ix2 k q) = V c main_call0_v16 (ix2 k q) := fun k => by
    show V c main_call0_v16 (((cfg0.win 3).blk t).view.emb (ix2 k q)) = _
    refine congrArg (V c main_call0_v16) (funext fun a => Fin.ext ?_)
    match a with
    | ⟨0, _⟩ => show win0_3.index t (0 : Fin 2) * 256 + 1 * k.val = k.val; omega
    | ⟨1, _⟩ => show win0_3.index t (1 : Fin 2) * 256 + 1 * q.val = q.val; omega
  have r4 : iblk0 V c 4 t (ix2 (0 : Fin 1) q) = V c main_call0_v17 (ix2 (0 : Fin 1) q) := by
    show V c main_call0_v17 (((cfg0.win 4).blk t).view.emb (ix2 (0 : Fin 1) q)) = _
    refine congrArg (V c main_call0_v17) (funext fun a => Fin.ext ?_)
    match a with
    | ⟨0, _⟩ => show win0_4.index t (0 : Fin 2) * 1 + 1 * 0 = 0; omega
    | ⟨1, _⟩ => show win0_4.index t (1 : Fin 2) * 256 + 1 * q.val = q.val; omega
  rw [ho, Cert.Layers.nodeUpdate_ix2]
  simp only [r0, r1, r2, r3, r4]

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_call0_v18).slice (win0_5.rect t)).set ↔ _
  rw [View.set_slice_whole, Rect.mem_set_unit]
  exact Iff.rfl

/-- Every node row lies in some tile: row `i` in tile `i / 1000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 50 := N_0
  obtain ⟨t, tv⟩ : ∃ t : Fin cfg0.N, t.val = (i 0).val / 1000 := ⟨⟨(i 0).val / 1000, by omega⟩, rfl⟩
  obtain ⟨e00, e01, e10, e11, e20, e21, e30, e31, e40, e41, eo0, eo1⟩ := idx_facts t
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 256 ≤ (i 1).val ∧ (i 1).val < win0_5.index t (1 : Fin 2) * 256 + 256; omega

/-- THE ARRAY the region leaves: the layer's function of the arrays it was entered with. -/
theorem final (c : Dev nD) : (dat0 V c).arrAt 5 cfg0.N
    = Cert.Layers.nodeUpdate (V c main_arg0) (V c main_call0_v15) (V c main_call0_v12) (V c main_call0_v16) (V c main_call0_v17) :=
  (dat0 V c).arrAt_eq_of_cover 5 _ (fun t _ => flushed_eq V c t) cover

end Cert.Region0

end
-- ==== Proof.Region1.lean ====
/-
  The second region (the first SAGE layer, with the positive part) as a function of whole arrays.

  The region runs the layer's body once per tile of 1000 node rows (50 tiles). Each tile reads rows
  1000 t … 1000 t + 999 of the neighbour sums, of the reciprocal-degree column and of the node features, and the two
  whole weight matrices and the bias row; it writes the same rows of the result. Since the tiles partition the 50000
  rows, the result array is the layer function `Cert.Layers.sageRelu` of the arrays the region was entered with.
-/
import proofs.«153122_j36988258353722_2_alg».proof.Proof.KernelIdealFrameP
import proofs.«153122_j36988258353722_2_alg».proof.Proof.TileValue
import proofs.«153122_j36988258353722_2_alg».proof.Proof.LayerFns

open scoped BigOperators

noncomputable section

namespace Cert.Region1

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the row-tiled windows at block row `t`, the weights and the
    bias at their one block (decided over the 50 points). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 50 := by
  have h := t.isLt
  have e : cfg1.N = 50 := N_1
  omega

/-- Row `p` of tile `t` is node `1000 t + p`. -/
def rowOf (t : Fin cfg1.N) (p : Fin 1000) : Fin 50000 := ⟨t.val * 1000 + p.val, by
  have := point_lt t; have := p.isLt; omega⟩

/-- WHAT POINT `t` WRITES BACK is tile `t` of the layer's function of the arrays the region finds. -/
theorem flushed_eq (c : Dev nD) (t : Fin cfg1.N) :
    (dat1 V c).flushed 6 t = ((cfg1.win 6).blk t).view.read (Elt Ideal)
      (Cert.Layers.sageRelu (V c main_call0_v28) (V c main_call0_v12) (V c main_call0_v18) (V c main_call0_v29) (V c main_call0_v31) (V c main_call0_v30)) := by
  show (cfg1.win 6).cut (grid1.coords t) ((dat1 V c).after 6 t) = _
  rw [after1_6]
  unfold out1_6
  rw [View.canon_unit_zero hz]
  simp only [View.ld_unit_zero (S := S1000x256) hz, View.ld_unit_zero (S := S1000x1) hz, View.ld_unit_zero (S := S256x256) hz, View.ld_unit_zero (S := S1x256) hz]
  obtain ⟨e00, e01, e10, e11, e20, e21, e30, e31, e40, e41, e50, e51, eo0, eo1⟩ := idx_facts t
  funext j
  obtain ⟨p, q, rfl⟩ : ∃ (p : Fin 1000) (q : Fin 256), j = ix2 p q := ⟨j 0, j 1, eq_ix2 j⟩
  show k1_pay1 (iblk1 V c 0 t) (iblk1 V c 1 t) (iblk1 V c 2 t) (iblk1 V c 3 t) (iblk1 V c 5 t) (iblk1 V c 4 t) (ix2 p q)
    = Cert.Layers.sageRelu (V c main_call0_v28) (V c main_call0_v12) (V c main_call0_v18) (V c main_call0_v29) (V c main_call0_v31) (V c main_call0_v30) (((cfg1.win 6).blk t).view.emb (ix2 p q))
  refine (Cert.Tile.sageReluTile_apply _ _ _ _ _ _ p q).trans ?_
  have ho : ((cfg1.win 6).blk t).view.emb (ix2 p q) = ix2 (rowOf t p) q := funext fun a => Fin.ext (by
    match a with
    | ⟨0, _⟩ => show win1_6.index t (0 : Fin 2) * 1000 + 1 * p.val = t.val * 1000 + p.val; omega
    | ⟨1, _⟩ => show win1_6.index t (1 : Fin 2) * 256 + 1 * q.val = q.val; omega)
  have r0 : ∀ k : Fin 256, iblk1 V c 0 t (ix2 p k) = V c main_call0_v28 (ix2 (rowOf t p) k) := fun k => by
    show V c main_call0_v28 (((cfg1.win 0).blk t).view.emb (ix2 p k)) = _
    refine congrArg (V c main_call0_v28) (funext fun a => Fin.ext ?_)
    match a with
    | ⟨0, _⟩ => show win1_0.index t (0 : Fin 2) * 1000 + 1 * p.val = t.val * 1000 + p.val; omega
    | ⟨1, _⟩ => show win1_0.index t (1 : Fin 2) * 256 + 1 * k.val = k.val; omega
  have r1 : iblk1 V c 1 t (ix2 p (0 : Fin 1)) = V c main_call0_v12 (ix2 (rowOf t p) (0 : Fin 1)) := by
    show V c main_call0_v12 (((cfg1.win 1).blk t).view.emb (ix2 p (0 : Fin 1))) = _
    refine congrArg (V c main_call0_v12) (funext fun a => Fin.ext ?_)
    match a with
    | ⟨0, _⟩ => show win1_1.index t (0 : Fin 2) * 1000 + 1 * p.val = t.val * 1000 + p.val; omega
    | ⟨1, _⟩ => show win1_1.index t (1 : Fin 2) * 1 + 1 * 0 = 0; omega
  have r2 : ∀ k : Fin 256, iblk1 V c 2 t (ix2 p k) = V c main_call0_v18 (ix2 (rowOf t p) k) := fun k => by
    show V c main_call0_v18 (((cfg1.win 2).blk t).view.emb (ix2 p k)) = _
    refine congrArg (V c main_call0_v18) (funext fun a => Fin.ext ?_)
    match a with
    | ⟨0, _⟩ => show win1_2.index t (0 : Fin 2) * 1000 + 1 * p.val = t.val * 1000 + p.val; omega
    | ⟨1, _⟩ => show win1_2.index t (1 : Fin 2) * 256 + 1 * k.val = k.val; omega
  have r3 : ∀ k : Fin 256, iblk1 V c 3 t (ix2 k q) = V c main_call0_v29 (ix2 k q) := fun k => by
    show V c main_call0_v29 (((cfg1.win 3).blk t).view.emb (ix2 k q)) = _
    refine congrArg (V c main_call0_v29) (funext fun a => Fin.ext ?_)
    match a with
    | ⟨0, _⟩ => show win1_3.index t (0 : Fin 2) * 256 + 1 * k.val = k.val; omega
    | ⟨1, _⟩ => show win1_3.index t (1 : Fin 2) * 256 + 1 * q.val = q.val; omega
  have r4 : iblk1 V c 4 t (ix2 (0 : Fin 1) q) = V c main_call0_v31 (ix2 (0 : Fin 1) q) := by
    show V c main_call0_v31 (((cfg1.win 4).blk t).view.emb (ix2 (0 : Fin 1) q)) = _
    refine congrArg (V c main_call0_v31) (funext fun a => Fin.ext ?_)
    match a with
    | ⟨0, _⟩ => show win1_4.index t (0 : Fin 2) * 1 + 1 * 0 = 0; omega
    | ⟨1, _⟩ => show win1_4.index t (1 : Fin 2) * 256 + 1 * q.val = q.val; omega
  have r5 : ∀ k : Fin 256, iblk1 V c 5 t (ix2 k q) = V c main_call0_v30 (ix2 k q) := fun k => by
    show V c main_call0_v30 (((cfg1.win 5).blk t).view.emb (ix2 k q)) = _
    refine congrArg (V c main_call0_v30) (funext fun a => Fin.ext ?_)
    match a with
    | ⟨0, _⟩ => show win1_5.index t (0 : Fin 2) * 256 + 1 * k.val = k.val; omega
    | ⟨1, _⟩ => show win1_5.index t (1 : Fin 2) * 256 + 1 * q.val = q.val; omega
  rw [ho, Cert.Layers.sageRelu_ix2]
  simp only [r0, r1, r2, r3, r4, r5]

/-- An index of the array is in point `t`'s block iff each coordinate is in the block's range on its axis. -/
theorem mem_blk (t : Fin cfg1.N) (i : S50000x256.Idx) :
    i ∈ ((cfg1.win 6).blk t).view.set ↔ ∀ a : Fin 2, win1_6.index t a * S1000x256.size a ≤ (i a).val ∧ (i a).val < win1_6.index t a * S1000x256.size a + S1000x256.size a := by
  show i ∈ ((View.whole main_call0_v32).slice (win1_6.rect t)).set ↔ _
  rw [View.set_slice_whole, Rect.mem_set_unit]
  exact Iff.rfl

/-- Every node row lies in some tile: row `i` in tile `i / 1000`. -/
theorem cover (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  have hN : cfg1.N = 50 := N_1
  obtain ⟨t, tv⟩ : ∃ t : Fin cfg1.N, t.val = (i 0).val / 1000 := ⟨⟨(i 0).val / 1000, by omega⟩, rfl⟩
  obtain ⟨e00, e01, e10, e11, e20, e21, e30, e31, e40, e41, e50, e51, eo0, eo1⟩ := idx_facts t
  refine ⟨t, flush1_6 t, ?_⟩
  rw [mem_blk]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 256 ≤ (i 1).val ∧ (i 1).val < win1_6.index t (1 : Fin 2) * 256 + 256; omega

/-- THE ARRAY the region leaves: the layer's function of the arrays it was entered with. -/
theorem final (c : Dev nD) : (dat1 V c).arrAt 6 cfg1.N
    = Cert.Layers.sageRelu (V c main_call0_v28) (V c main_call0_v12) (V c main_call0_v18) (V c main_call0_v29) (V c main_call0_v31) (V c main_call0_v30) :=
  (dat1 V c).arrAt_eq_of_cover 6 _ (fun t _ => flushed_eq V c t) cover

end Cert.Region1

end
-- ==== Proof.Region2.lean ====
/-
  The third region (the second SAGE layer, no activation) as a function of whole arrays.

  The region runs the layer's body once per tile of 1000 node rows (50 tiles). Each tile reads rows
  1000 t … 1000 t + 999 of the neighbour sums, of the reciprocal-degree column and of the node features, and the two
  whole weight matrices and the bias row; it writes the same rows of the result. Since the tiles partition the 50000
  rows, the result array is the layer function `Cert.Layers.sage` of the arrays the region was entered with.
-/
import proofs.«153122_j36988258353722_2_alg».proof.Proof.KernelIdealFrameP
import proofs.«153122_j36988258353722_2_alg».proof.Proof.TileValue
import proofs.«153122_j36988258353722_2_alg».proof.Proof.LayerFns

open scoped BigOperators

noncomputable section

namespace Cert.Region2

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the row-tiled windows at block row `t`, the weights and the
    bias at their one block (decided over the 50 points). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem point_lt (t : Fin cfg2.N) : t.val < 50 := by
  have h := t.isLt
  have e : cfg2.N = 50 := N_2
  omega

/-- Row `p` of tile `t` is node `1000 t + p`. -/
def rowOf (t : Fin cfg2.N) (p : Fin 1000) : Fin 50000 := ⟨t.val * 1000 + p.val, by
  have := point_lt t; have := p.isLt; omega⟩

/-- WHAT POINT `t` WRITES BACK is tile `t` of the layer's function of the arrays the region finds. -/
theorem flushed_eq (c : Dev nD) (t : Fin cfg2.N) :
    (dat2 V c).flushed 6 t = ((cfg2.win 6).blk t).view.read (Elt Ideal)
      (Cert.Layers.sage (V c main_call0_v42) (V c main_call0_v12) (V c main_call0_v32) (V c main_call0_v43) (V c main_call0_v45) (V c main_call0_v44)) := by
  show (cfg2.win 6).cut (grid2.coords t) ((dat2 V c).after 6 t) = _
  rw [after2_6]
  unfold out2_6
  rw [View.canon_unit_zero hz]
  simp only [View.ld_unit_zero (S := S1000x256) hz, View.ld_unit_zero (S := S1000x1) hz, View.ld_unit_zero (S := S256x256) hz, View.ld_unit_zero (S := S1x256) hz]
  obtain ⟨e00, e01, e10, e11, e20, e21, e30, e31, e40, e41, e50, e51, eo0, eo1⟩ := idx_facts t
  funext j
  obtain ⟨p, q, rfl⟩ : ∃ (p : Fin 1000) (q : Fin 256), j = ix2 p q := ⟨j 0, j 1, eq_ix2 j⟩
  show k2_pay1 (iblk2 V c 0 t) (iblk2 V c 1 t) (iblk2 V c 2 t) (iblk2 V c 3 t) (iblk2 V c 5 t) (iblk2 V c 4 t) (ix2 p q)
    = Cert.Layers.sage (V c main_call0_v42) (V c main_call0_v12) (V c main_call0_v32) (V c main_call0_v43) (V c main_call0_v45) (V c main_call0_v44) (((cfg2.win 6).blk t).view.emb (ix2 p q))
  refine (Cert.Tile.sageTile_apply _ _ _ _ _ _ p q).trans ?_
  have ho : ((cfg2.win 6).blk t).view.emb (ix2 p q) = ix2 (rowOf t p) q := funext fun a => Fin.ext (by
    match a with
    | ⟨0, _⟩ => show win2_6.index t (0 : Fin 2) * 1000 + 1 * p.val = t.val * 1000 + p.val; omega
    | ⟨1, _⟩ => show win2_6.index t (1 : Fin 2) * 256 + 1 * q.val = q.val; omega)
  have r0 : ∀ k : Fin 256, iblk2 V c 0 t (ix2 p k) = V c main_call0_v42 (ix2 (rowOf t p) k) := fun k => by
    show V c main_call0_v42 (((cfg2.win 0).blk t).view.emb (ix2 p k)) = _
    refine congrArg (V c main_call0_v42) (funext fun a => Fin.ext ?_)
    match a with
    | ⟨0, _⟩ => show win2_0.index t (0 : Fin 2) * 1000 + 1 * p.val = t.val * 1000 + p.val; omega
    | ⟨1, _⟩ => show win2_0.index t (1 : Fin 2) * 256 + 1 * k.val = k.val; omega
  have r1 : iblk2 V c 1 t (ix2 p (0 : Fin 1)) = V c main_call0_v12 (ix2 (rowOf t p) (0 : Fin 1)) := by
    show V c main_call0_v12 (((cfg2.win 1).blk t).view.emb (ix2 p (0 : Fin 1))) = _
    refine congrArg (V c main_call0_v12) (funext fun a => Fin.ext ?_)
    match a with
    | ⟨0, _⟩ => show win2_1.index t (0 : Fin 2) * 1000 + 1 * p.val = t.val * 1000 + p.val; omega
    | ⟨1, _⟩ => show win2_1.index t (1 : Fin 2) * 1 + 1 * 0 = 0; omega
  have r2 : ∀ k : Fin 256, iblk2 V c 2 t (ix2 p k) = V c main_call0_v32 (ix2 (rowOf t p) k) := fun k => by
    show V c main_call0_v32 (((cfg2.win 2).blk t).view.emb (ix2 p k)) = _
    refine congrArg (V c main_call0_v32) (funext fun a => Fin.ext ?_)
    match a with
    | ⟨0, _⟩ => show win2_2.index t (0 : Fin 2) * 1000 + 1 * p.val = t.val * 1000 + p.val; omega
    | ⟨1, _⟩ => show win2_2.index t (1 : Fin 2) * 256 + 1 * k.val = k.val; omega
  have r3 : ∀ k : Fin 256, iblk2 V c 3 t (ix2 k q) = V c main_call0_v43 (ix2 k q) := fun k => by
    show V c main_call0_v43 (((cfg2.win 3).blk t).view.emb (ix2 k q)) = _
    refine congrArg (V c main_call0_v43) (funext fun a => Fin.ext ?_)
    match a with
    | ⟨0, _⟩ => show win2_3.index t (0 : Fin 2) * 256 + 1 * k.val = k.val; omega
    | ⟨1, _⟩ => show win2_3.index t (1 : Fin 2) * 256 + 1 * q.val = q.val; omega
  have r4 : iblk2 V c 4 t (ix2 (0 : Fin 1) q) = V c main_call0_v45 (ix2 (0 : Fin 1) q) := by
    show V c main_call0_v45 (((cfg2.win 4).blk t).view.emb (ix2 (0 : Fin 1) q)) = _
    refine congrArg (V c main_call0_v45) (funext fun a => Fin.ext ?_)
    match a with
    | ⟨0, _⟩ => show win2_4.index t (0 : Fin 2) * 1 + 1 * 0 = 0; omega
    | ⟨1, _⟩ => show win2_4.index t (1 : Fin 2) * 256 + 1 * q.val = q.val; omega
  have r5 : ∀ k : Fin 256, iblk2 V c 5 t (ix2 k q) = V c main_call0_v44 (ix2 k q) := fun k => by
    show V c main_call0_v44 (((cfg2.win 5).blk t).view.emb (ix2 k q)) = _
    refine congrArg (V c main_call0_v44) (funext fun a => Fin.ext ?_)
    match a with
    | ⟨0, _⟩ => show win2_5.index t (0 : Fin 2) * 256 + 1 * k.val = k.val; omega
    | ⟨1, _⟩ => show win2_5.index t (1 : Fin 2) * 256 + 1 * q.val = q.val; omega
  rw [ho, Cert.Layers.sage_ix2]
  simp only [r0, r1, r2, r3, r4, r5]

/-- An index of the array is in point `t`'s block iff each coordinate is in the block's range on its axis. -/
theorem mem_blk (t : Fin cfg2.N) (i : S50000x256.Idx) :
    i ∈ ((cfg2.win 6).blk t).view.set ↔ ∀ a : Fin 2, win2_6.index t a * S1000x256.size a ≤ (i a).val ∧ (i a).val < win2_6.index t a * S1000x256.size a + S1000x256.size a := by
  show i ∈ ((View.whole main_v0_0).slice (win2_6.rect t)).set ↔ _
  rw [View.set_slice_whole, Rect.mem_set_unit]
  exact Iff.rfl

/-- Every node row lies in some tile: row `i` in tile `i / 1000`. -/
theorem cover (i : S50000x256.Idx) : ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 50 := N_2
  obtain ⟨t, tv⟩ : ∃ t : Fin cfg2.N, t.val = (i 0).val / 1000 := ⟨⟨(i 0).val / 1000, by omega⟩, rfl⟩
  obtain ⟨e00, e01, e10, e11, e20, e21, e30, e31, e40, e41, e50, e51, eo0, eo1⟩ := idx_facts t
  refine ⟨t, flush2_6 t, ?_⟩
  rw [mem_blk]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 256 ≤ (i 1).val ∧ (i 1).val < win2_6.index t (1 : Fin 2) * 256 + 256; omega

/-- THE ARRAY the region leaves: the layer's function of the arrays it was entered with. -/
theorem final (c : Dev nD) : (dat2 V c).arrAt 6 cfg2.N
    = Cert.Layers.sage (V c main_call0_v42) (V c main_call0_v12) (V c main_call0_v32) (V c main_call0_v43) (V c main_call0_v45) (V c main_call0_v44) :=
  (dat2 V c).arrAt_eq_of_cover 6 _ (fun t _ => flushed_eq V c t) cover

end Cert.Region2

end
-- ==== Proof.KTerms.lean ====
/-
  The kernel program's host-side quantities, in its own vocabulary.

  The same quantities as on the reference's side — the edge list's destination and source columns, each node's divisor
  (the larger of its in-degree and 1), the aggregation of per-edge rows onto destination nodes, the rows gathered along
  the source column — and, in place of a division by the divisor, the column of reciprocals 1 / divisor that the program
  computes once and hands to every region. The three layers are the layer functions of these.
-/
import proofs.«153122_j36988258353722_2_alg».proof.KernelIdeal
import proofs.«153122_j36988258353722_2_alg».proof.Proof.Gen.KernelIdeal
import proofs.«153122_j36988258353722_2_alg».proof.Proof.LayerFns
import Idealize.ShloMosaic.PureOps.Ideal

noncomputable section

namespace Cert.KTerms

open Cert.KernelIdeal Cert.KernelIdeal.Gen Idealize.ShloMosaic Idealize.ShloMosaic.TcCoe Idealize.SL.Sem

variable (ei : (⟨S2x500000, .i32⟩ : BufTy).Contents (Elt Ideal))

/-- The source node of each edge, as listed. -/
def srcRow : (⟨S500000, .i32⟩ : BufTy).Contents (Elt Ideal) :=
  shapeCast S500000 (extractStridedSlice S1x500000 ![0, 0] ei slices_S2x500000_S1x500000_0_0) shapeCasts_S1x500000_S500000

/-- The destination node of each edge, as listed. -/
def dstRow : (⟨S500000, .i32⟩ : BufTy).Contents (Elt Ideal) :=
  shapeCast S500000 (extractStridedSlice S1x500000 ![1, 0] ei slices_S2x500000_S1x500000_1_0) shapeCasts_S1x500000_S500000

/-- The destination node of each edge, as a column. -/
def dstCol : (⟨S500000x1, .i32⟩ : BufTy).Contents (Elt Ideal) :=
  broadcastInDim S500000x1 ![0] bcast_S500000_S500000x1_0 (dstRow ei)

/-- The source node of each edge as a column, an index below zero counted from the end. -/
def srcCol : (⟨S500000x1, .i32⟩ : BufTy).Contents (Elt Ideal) :=
  broadcastInDim S500000x1 ![0] bcast_S500000_S500000x1_0
    (select (cmpi .slt (srcRow ei) (broadcastInDim S500000 ![] bcast_S_S500000 (constantI S_ 32 0#32)))
      (addi (srcRow ei) (broadcastInDim S500000 ![] bcast_S_S500000 (constantI S_ 32 50000#32))) (srcRow ei))

/-- Each node's divisor: its in-degree (a one scattered per edge into zeros), or one if that is larger. -/
def divisor : FVec Ideal S50000 .f32 :=
  maximumf (Host.scatterAdd scatter_S50000_S500000x1_S500000_n_0_0_1 (broadcastInDim S50000 ![] bcast_S_S50000 (constant (F := Ideal) S_ .f32 0x00000000#32))
      (dstCol ei) (broadcastInDim S500000 ![] bcast_S_S500000 (constant (F := Ideal) S_ .f32 0x3F800000#32)))
    (broadcastInDim S50000 ![] bcast_S_S50000 (constant (F := Ideal) S_ .f32 0x3F800000#32))

/-- The column of reciprocal divisors. -/
def recip : FVec Ideal S50000x1 .f32 :=
  shapeCast S50000x1 (Host.divf (broadcastInDim S50000 ![] bcast_S_S50000 (constant (F := Ideal) S_ .f32 0x3F800000#32)) (divisor ei))
    shapeCasts_S50000_S50000x1

/-- Per-edge rows summed onto their destination nodes. -/
def aggregate (u : FVec Ideal S500000x256 .f32) : FVec Ideal S50000x256 .f32 :=
  Host.scatterAdd scatter_S50000x256_S500000x1_S500000x256_1_0_0_1
    (broadcastInDim S50000x256 ![] bcast_S_S50000x256 (constant (F := Ideal) S_ .f32 0x00000000#32)) (dstCol ei) u

/-- Each edge's source node's row. -/
def neighbours (X : FVec Ideal S50000x256 .f32) : FVec Ideal S500000x256 .f32 :=
  Host.gather gather_S50000x256_S500000x1_S500000x256_1_0_n_n_0_1_1256 X (srcCol ei)

/-- The node update. -/
def layer1 (x : FVec Ideal S50000x256 .f32) (e : FVec Ideal S500000x256 .f32) (W : FVec Ideal S256x256 .f32) (b : FVec Ideal S256 .f32) :
    FVec Ideal S50000x256 .f32 :=
  Cert.Layers.nodeUpdate x (aggregate ei e) (recip ei) (truncf .bf16 W bitsLt_bf16_f32) (shapeCast S1x256 b shapeCasts_S256_S1x256)

/-- The first SAGE layer, with the positive part. -/
def layer2 (X : FVec Ideal S50000x256 .f32) (Wl : FVec Ideal S256x256 .f32) (bl : FVec Ideal S256 .f32) (Wr : FVec Ideal S256x256 .f32) :
    FVec Ideal S50000x256 .f32 :=
  Cert.Layers.sageRelu (aggregate ei (neighbours ei X)) (recip ei) X (truncf .bf16 Wl bitsLt_bf16_f32)
    (shapeCast S1x256 bl shapeCasts_S256_S1x256) (truncf .bf16 Wr bitsLt_bf16_f32)

/-- The second SAGE layer. -/
def layer3 (X : FVec Ideal S50000x256 .f32) (Wl : FVec Ideal S256x256 .f32) (bl : FVec Ideal S256 .f32) (Wr : FVec Ideal S256x256 .f32) :
    FVec Ideal S50000x256 .f32 :=
  Cert.Layers.sage (aggregate ei (neighbours ei X)) (recip ei) X (truncf .bf16 Wl bitsLt_bf16_f32)
    (shapeCast S1x256 bl shapeCasts_S256_S1x256) (truncf .bf16 Wr bitsLt_bf16_f32)

end Cert.KTerms

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.KernelValue.lean ====
/-
  What the kernel's program leaves in its result buffer.

  The program's memory is followed from the launch to the return: a stretch of host operations, the node-update
  region, a second stretch, the first SAGE region, a third stretch, the second SAGE region. After each stretch a
  buffer holds its operation's value of the buffers before it; after each region the region's output array holds the
  layer function of the arrays the region was entered with (the tiles partition the rows), its input arrays and every
  other buffer what they held. Read at the buffers that matter, the fold gives: the three layers nested, each applied
  to the aggregation of the previous layer's gathered rows, the reciprocal-divisor column, the previous layer's output,
  and that layer's weights and bias.
-/
import proofs.«153122_j36988258353722_2_alg».proof.Proof.KernelIdealFrameP
import proofs.«153122_j36988258353722_2_alg».proof.Proof.Region0
import proofs.«153122_j36988258353722_2_alg».proof.Proof.Region1
import proofs.«153122_j36988258353722_2_alg».proof.Proof.Region2
import proofs.«153122_j36988258353722_2_alg».proof.Proof.KTerms
import proofs.«153122_j36988258353722_2_alg».proof.Proof.LibTypedRef

noncomputable section

namespace Cert.KernelValue

open Cert.KernelIdeal Cert.KernelIdeal.Gen Cert.KernelIdeal.GenP Idealize.ShloMosaic Idealize.ShloMosaic.TcCoe Idealize.SL.Sem
open Idealize.ShloMosaic.StableHlo

-- the scatter, the gather and the layer functions are compared as wholes, never opened
attribute [local irreducible] Host.scatterAdd Host.gather Cert.Layers.nodeUpdate Cert.Layers.sage Cert.Layers.sageRelu

/-- One buffer after a stretch of host operations: each operation's result at its own buffer is its function of its
    operands' buffers, any other buffer is as before; the transports between a value's type and its buffer's type are
    identities. -/
local macro "host_term" : tactic =>
  `(tactic| (after_results; (try simp only [Cert.TypedRef.ofBuf_toBuf]); (try dsimp only [TRef.toBuf, TRef.ofBuf, TRef.of]); (try simp only [cast_eq])))

variable (m : (ℓ : Loc nD τ sig) → Buf (Elt Ideal) ℓ) (ρ : Dev nD → PrngReg) (c : Dev nD)

/-! ## After the first stretch of host operations -/

theorem W1_arg0 : W1 m ρ c (Proc.devRef .tc main_arg0) = m ((c : Thread nD τ).loc main_arg0) := by
  show StableHlo.after hostOps0 (W0 m ρ c) (Proc.devRef .tc main_arg0) = _
  host_term
  try rfl

theorem W1_arg4 : W1 m ρ c (Proc.devRef .tc main_arg4) = m ((c : Thread nD τ).loc main_arg4) := by
  show StableHlo.after hostOps0 (W0 m ρ c) (Proc.devRef .tc main_arg4) = _
  host_term
  try rfl

theorem W1_arg5 : W1 m ρ c (Proc.devRef .tc main_arg5) = m ((c : Thread nD τ).loc main_arg5) := by
  show StableHlo.after hostOps0 (W0 m ρ c) (Proc.devRef .tc main_arg5) = _
  host_term
  try rfl

theorem W1_arg6 : W1 m ρ c (Proc.devRef .tc main_arg6) = m ((c : Thread nD τ).loc main_arg6) := by
  show StableHlo.after hostOps0 (W0 m ρ c) (Proc.devRef .tc main_arg6) = _
  host_term
  try rfl

theorem W1_arg7 : W1 m ρ c (Proc.devRef .tc main_arg7) = m ((c : Thread nD τ).loc main_arg7) := by
  show StableHlo.after hostOps0 (W0 m ρ c) (Proc.devRef .tc main_arg7) = _
  host_term
  try rfl

theorem W1_arg8 : W1 m ρ c (Proc.devRef .tc main_arg8) = m ((c : Thread nD τ).loc main_arg8) := by
  show StableHlo.after hostOps0 (W0 m ρ c) (Proc.devRef .tc main_arg8) = _
  host_term
  try rfl

theorem W1_arg9 : W1 m ρ c (Proc.devRef .tc main_arg9) = m ((c : Thread nD τ).loc main_arg9) := by
  show StableHlo.after hostOps0 (W0 m ρ c) (Proc.devRef .tc main_arg9) = _
  host_term
  try rfl

theorem W1_v1 : W1 m ρ c (Proc.devRef .tc main_call0_v1) = Cert.KTerms.srcRow (m ((c : Thread nD τ).loc main_arg10)) := by
  show StableHlo.after hostOps0 (W0 m ρ c) (Proc.devRef .tc main_call0_v1) = _
  host_term
  try rfl

theorem W1_v3 : W1 m ρ c (Proc.devRef .tc main_call0_v3) = Cert.KTerms.dstRow (m ((c : Thread nD τ).loc main_arg10)) := by
  show StableHlo.after hostOps0 (W0 m ρ c) (Proc.devRef .tc main_call0_v3) = _
  host_term
  try rfl

theorem W1_v12 : W1 m ρ c (Proc.devRef .tc main_call0_v12) = Cert.KTerms.recip (m ((c : Thread nD τ).loc main_arg10)) := by
  show StableHlo.after hostOps0 (W0 m ρ c) (Proc.devRef .tc main_call0_v12) = _
  host_term
  try rfl

theorem W1_v15 : W1 m ρ c (Proc.devRef .tc main_call0_v15) = Cert.KTerms.aggregate (m ((c : Thread nD τ).loc main_arg10)) (m ((c : Thread nD τ).loc main_arg1)) := by
  show StableHlo.after hostOps0 (W0 m ρ c) (Proc.devRef .tc main_call0_v15) = _
  host_term
  try rfl

theorem W1_v16 : W1 m ρ c (Proc.devRef .tc main_call0_v16) = (truncf .bf16 (m ((c : Thread nD τ).loc main_arg2)) bitsLt_bf16_f32 : FVec Ideal S256x256 .bf16) := by
  show StableHlo.after hostOps0 (W0 m ρ c) (Proc.devRef .tc main_call0_v16) = _
  host_term
  try rfl

theorem W1_v17 : W1 m ρ c (Proc.devRef .tc main_call0_v17) = (shapeCast S1x256 (m ((c : Thread nD τ).loc main_arg3)) shapeCasts_S256_S1x256 : FVec Ideal S1x256 .f32) := by
  show StableHlo.after hostOps0 (W0 m ρ c) (Proc.devRef .tc main_call0_v17) = _
  host_term
  try rfl

/-! ## After the node-update region -/

theorem W2_v18 : W2 m ρ c (Proc.devRef .tc main_call0_v18) = (Cert.KTerms.layer1 (m ((c : Thread nD τ).loc main_arg10)) (m ((c : Thread nD τ).loc main_arg0)) (m ((c : Thread nD τ).loc main_arg1)) (m ((c : Thread nD τ).loc main_arg2)) (m ((c : Thread nD τ).loc main_arg3))) := by
  refine (W2_arr m ρ c 5).trans ?_
  rw [Cert.Region0.final (V1 m ρ) c]
  rw [show V1 m ρ c main_arg0 = _ from W1_arg0 m ρ c, show V1 m ρ c main_call0_v15 = _ from W1_v15 m ρ c,
    show V1 m ρ c main_call0_v12 = _ from W1_v12 m ρ c, show V1 m ρ c main_call0_v16 = _ from W1_v16 m ρ c,
    show V1 m ρ c main_call0_v17 = _ from W1_v17 m ρ c]
  try rfl

theorem W2_v12 : W2 m ρ c (Proc.devRef .tc main_call0_v12) = Cert.KTerms.recip (m ((c : Thread nD τ).loc main_arg10)) :=
  (W2_arr m ρ c 2).trans ((((dat0 (V1 m ρ) c).arrAt_in 2 rfl _).trans (A_eq0 (V1 m ρ) c 2)).trans (W1_v12 m ρ c))

theorem W2_v1 : W2 m ρ c (Proc.devRef .tc main_call0_v1) = Cert.KTerms.srcRow (m ((c : Thread nD τ).loc main_arg10)) :=
  (W2_of_ne m ρ c main_call0_v1 (by decide)).trans (W1_v1 m ρ c)

theorem W2_v3 : W2 m ρ c (Proc.devRef .tc main_call0_v3) = Cert.KTerms.dstRow (m ((c : Thread nD τ).loc main_arg10)) :=
  (W2_of_ne m ρ c main_call0_v3 (by decide)).trans (W1_v3 m ρ c)

theorem W2_arg4 : W2 m ρ c (Proc.devRef .tc main_arg4) = m ((c : Thread nD τ).loc main_arg4) :=
  (W2_of_ne m ρ c main_arg4 (by decide)).trans (W1_arg4 m ρ c)

theorem W2_arg5 : W2 m ρ c (Proc.devRef .tc main_arg5) = m ((c : Thread nD τ).loc main_arg5) :=
  (W2_of_ne m ρ c main_arg5 (by decide)).trans (W1_arg5 m ρ c)

theorem W2_arg6 : W2 m ρ c (Proc.devRef .tc main_arg6) = m ((c : Thread nD τ).loc main_arg6) :=
  (W2_of_ne m ρ c main_arg6 (by decide)).trans (W1_arg6 m ρ c)

theorem W2_arg7 : W2 m ρ c (Proc.devRef .tc main_arg7) = m ((c : Thread nD τ).loc main_arg7) :=
  (W2_of_ne m ρ c main_arg7 (by decide)).trans (W1_arg7 m ρ c)

theorem W2_arg8 : W2 m ρ c (Proc.devRef .tc main_arg8) = m ((c : Thread nD τ).loc main_arg8) :=
  (W2_of_ne m ρ c main_arg8 (by decide)).trans (W1_arg8 m ρ c)

theorem W2_arg9 : W2 m ρ c (Proc.devRef .tc main_arg9) = m ((c : Thread nD τ).loc main_arg9) :=
  (W2_of_ne m ρ c main_arg9 (by decide)).trans (W1_arg9 m ρ c)

/-! ## After the second stretch of host operations -/

theorem W3_v28 : W3 m ρ c (Proc.devRef .tc main_call0_v28) = Cert.KTerms.aggregate (m ((c : Thread nD τ).loc main_arg10)) (Cert.KTerms.neighbours (m ((c : Thread nD τ).loc main_arg10)) (Cert.KTerms.layer1 (m ((c : Thread nD τ).loc main_arg10)) (m ((c : Thread nD τ).loc main_arg0)) (m ((c : Thread nD τ).loc main_arg1)) (m ((c : Thread nD τ).loc main_arg2)) (m ((c : Thread nD τ).loc main_arg3)))) := by
  show StableHlo.after hostOps1 (W2 m ρ c) (Proc.devRef .tc main_call0_v28) = _
  host_term
  rw [W2_v3 m ρ c, W2_v18 m ρ c, W2_v1 m ρ c]
  try rfl

theorem W3_v12 : W3 m ρ c (Proc.devRef .tc main_call0_v12) = Cert.KTerms.recip (m ((c : Thread nD τ).loc main_arg10)) := by
  show StableHlo.after hostOps1 (W2 m ρ c) (Proc.devRef .tc main_call0_v12) = _
  host_term
  rw [W2_v12 m ρ c]
  try rfl

theorem W3_v18 : W3 m ρ c (Proc.devRef .tc main_call0_v18) = (Cert.KTerms.layer1 (m ((c : Thread nD τ).loc main_arg10)) (m ((c : Thread nD τ).loc main_arg0)) (m ((c : Thread nD τ).loc main_arg1)) (m ((c : Thread nD τ).loc main_arg2)) (m ((c : Thread nD τ).loc main_arg3))) := by
  show StableHlo.after hostOps1 (W2 m ρ c) (Proc.devRef .tc main_call0_v18) = _
  host_term
  rw [W2_v18 m ρ c]
  try rfl

theorem W3_v29 : W3 m ρ c (Proc.devRef .tc main_call0_v29) = (truncf .bf16 (m ((c : Thread nD τ).loc main_arg4)) bitsLt_bf16_f32 : FVec Ideal S256x256 .bf16) := by
  show StableHlo.after hostOps1 (W2 m ρ c) (Proc.devRef .tc main_call0_v29) = _
  host_term
  rw [W2_arg4 m ρ c]
  try rfl

theorem W3_v31 : W3 m ρ c (Proc.devRef .tc main_call0_v31) = (shapeCast S1x256 (m ((c : Thread nD τ).loc main_arg5)) shapeCasts_S256_S1x256 : FVec Ideal S1x256 .f32) := by
  show StableHlo.after hostOps1 (W2 m ρ c) (Proc.devRef .tc main_call0_v31) = _
  host_term
  rw [W2_arg5 m ρ c]
  try rfl

theorem W3_v30 : W3 m ρ c (Proc.devRef .tc main_call0_v30) = (truncf .bf16 (m ((c : Thread nD τ).loc main_arg6)) bitsLt_bf16_f32 : FVec Ideal S256x256 .bf16) := by
  show StableHlo.after hostOps1 (W2 m ρ c) (Proc.devRef .tc main_call0_v30) = _
  host_term
  rw [W2_arg6 m ρ c]
  try rfl

theorem W3_v1 : W3 m ρ c (Proc.devRef .tc main_call0_v1) = Cert.KTerms.srcRow (m ((c : Thread nD τ).loc main_arg10)) := by
  show StableHlo.after hostOps1 (W2 m ρ c) (Proc.devRef .tc main_call0_v1) = _
  host_term
  rw [W2_v1 m ρ c]
  try rfl

theorem W3_v3 : W3 m ρ c (Proc.devRef .tc main_call0_v3) = Cert.KTerms.dstRow (m ((c : Thread nD τ).loc main_arg10)) := by
  show StableHlo.after hostOps1 (W2 m ρ c) (Proc.devRef .tc main_call0_v3) = _
  host_term
  rw [W2_v3 m ρ c]
  try rfl

theorem W3_arg7 : W3 m ρ c (Proc.devRef .tc main_arg7) = m ((c : Thread nD τ).loc main_arg7) := by
  show StableHlo.after hostOps1 (W2 m ρ c) (Proc.devRef .tc main_arg7) = _
  host_term
  rw [W2_arg7 m ρ c]
  try rfl

theorem W3_arg8 : W3 m ρ c (Proc.devRef .tc main_arg8) = m ((c : Thread nD τ).loc main_arg8) := by
  show StableHlo.after hostOps1 (W2 m ρ c) (Proc.devRef .tc main_arg8) = _
  host_term
  rw [W2_arg8 m ρ c]
  try rfl

theorem W3_arg9 : W3 m ρ c (Proc.devRef .tc main_arg9) = m ((c : Thread nD τ).loc main_arg9) := by
  show StableHlo.after hostOps1 (W2 m ρ c) (Proc.devRef .tc main_arg9) = _
  host_term
  rw [W2_arg9 m ρ c]
  try rfl

/-! ## After the first SAGE region -/

theorem W4_v32 : W4 m ρ c (Proc.devRef .tc main_call0_v32) = (Cert.KTerms.layer2 (m ((c : Thread nD τ).loc main_arg10)) (Cert.KTerms.layer1 (m ((c : Thread nD τ).loc main_arg10)) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) := by
  refine (W4_arr m ρ c 6).trans ?_
  rw [Cert.Region1.final (V3 m ρ) c]
  rw [show V3 m ρ c main_call0_v28 = _ from W3_v28 m ρ c, show V3 m ρ c main_call0_v12 = _ from W3_v12 m ρ c,
    show V3 m ρ c main_call0_v18 = _ from W3_v18 m ρ c, show V3 m ρ c main_call0_v29 = _ from W3_v29 m ρ c,
    show V3 m ρ c main_call0_v31 = _ from W3_v31 m ρ c, show V3 m ρ c main_call0_v30 = _ from W3_v30 m ρ c]
  try rfl

theorem W4_v12 : W4 m ρ c (Proc.devRef .tc main_call0_v12) = Cert.KTerms.recip (m ((c : Thread nD τ).loc main_arg10)) :=
  (W4_arr m ρ c 1).trans ((((dat1 (V3 m ρ) c).arrAt_in 1 rfl _).trans (A_eq1 (V3 m ρ) c 1)).trans (W3_v12 m ρ c))

theorem W4_v1 : W4 m ρ c (Proc.devRef .tc main_call0_v1) = Cert.KTerms.srcRow (m ((c : Thread nD τ).loc main_arg10)) :=
  (W4_of_ne m ρ c main_call0_v1 (by decide)).trans (W3_v1 m ρ c)

theorem W4_v3 : W4 m ρ c (Proc.devRef .tc main_call0_v3) = Cert.KTerms.dstRow (m ((c : Thread nD τ).loc main_arg10)) :=
  (W4_of_ne m ρ c main_call0_v3 (by decide)).trans (W3_v3 m ρ c)

theorem W4_arg7 : W4 m ρ c (Proc.devRef .tc main_arg7) = m ((c : Thread nD τ).loc main_arg7) :=
  (W4_of_ne m ρ c main_arg7 (by decide)).trans (W3_arg7 m ρ c)

theorem W4_arg8 : W4 m ρ c (Proc.devRef .tc main_arg8) = m ((c : Thread nD τ).loc main_arg8) :=
  (W4_of_ne m ρ c main_arg8 (by decide)).trans (W3_arg8 m ρ c)

theorem W4_arg9 : W4 m ρ c (Proc.devRef .tc main_arg9) = m ((c : Thread nD τ).loc main_arg9) :=
  (W4_of_ne m ρ c main_arg9 (by decide)).trans (W3_arg9 m ρ c)

/-! ## After the third stretch of host operations -/

set_option maxHeartbeats 4000000 in
theorem W5_v42 : W5 m ρ c (Proc.devRef .tc main_call0_v42) = Cert.KTerms.aggregate (m ((c : Thread nD τ).loc main_arg10)) (Cert.KTerms.neighbours (m ((c : Thread nD τ).loc main_arg10)) (Cert.KTerms.layer2 (m ((c : Thread nD τ).loc main_arg10)) (Cert.KTerms.layer1 (m ((c : Thread nD τ).loc main_arg10)) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)))) := by
  show StableHlo.after hostOps2 (W4 m ρ c) (Proc.devRef .tc main_call0_v42) = _
  have h0 := W4_v3 m ρ c
  have h1 := W4_v32 m ρ c
  have h2 := W4_v1 m ρ c
  generalize W4 m ρ c = Wv at h0 h1 h2 ⊢
  host_term
  rw [h0, h1, h2]
  try rfl

set_option maxHeartbeats 4000000 in
theorem W5_v12 : W5 m ρ c (Proc.devRef .tc main_call0_v12) = Cert.KTerms.recip (m ((c : Thread nD τ).loc main_arg10)) := by
  show StableHlo.after hostOps2 (W4 m ρ c) (Proc.devRef .tc main_call0_v12) = _
  have h0 := W4_v12 m ρ c
  generalize W4 m ρ c = Wv at h0 ⊢
  host_term
  rw [h0]
  try rfl

set_option maxHeartbeats 4000000 in
theorem W5_v32 : W5 m ρ c (Proc.devRef .tc main_call0_v32) = (Cert.KTerms.layer2 (m ((c : Thread nD τ).loc main_arg10)) (Cert.KTerms.layer1 (m ((c : Thread nD τ).loc main_arg10)) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) := by
  show StableHlo.after hostOps2 (W4 m ρ c) (Proc.devRef .tc main_call0_v32) = _
  have h0 := W4_v32 m ρ c
  generalize W4 m ρ c = Wv at h0 ⊢
  host_term
  rw [h0]
  try rfl

set_option maxHeartbeats 4000000 in
theorem W5_v43 : W5 m ρ c (Proc.devRef .tc main_call0_v43) = (truncf .bf16 (m ((c : Thread nD τ).loc main_arg7)) bitsLt_bf16_f32 : FVec Ideal S256x256 .bf16) := by
  show StableHlo.after hostOps2 (W4 m ρ c) (Proc.devRef .tc main_call0_v43) = _
  have h0 := W4_arg7 m ρ c
  generalize W4 m ρ c = Wv at h0 ⊢
  host_term
  rw [h0]
  try rfl

set_option maxHeartbeats 4000000 in
theorem W5_v45 : W5 m ρ c (Proc.devRef .tc main_call0_v45) = (shapeCast S1x256 (m ((c : Thread nD τ).loc main_arg8)) shapeCasts_S256_S1x256 : FVec Ideal S1x256 .f32) := by
  show StableHlo.after hostOps2 (W4 m ρ c) (Proc.devRef .tc main_call0_v45) = _
  have h0 := W4_arg8 m ρ c
  generalize W4 m ρ c = Wv at h0 ⊢
  host_term
  rw [h0]
  try rfl

set_option maxHeartbeats 4000000 in
theorem W5_v44 : W5 m ρ c (Proc.devRef .tc main_call0_v44) = (truncf .bf16 (m ((c : Thread nD τ).loc main_arg9)) bitsLt_bf16_f32 : FVec Ideal S256x256 .bf16) := by
  show StableHlo.after hostOps2 (W4 m ρ c) (Proc.devRef .tc main_call0_v44) = _
  have h0 := W4_arg9 m ρ c
  generalize W4 m ρ c = Wv at h0 ⊢
  host_term
  rw [h0]
  try rfl

/-! ## After the second SAGE region: the result -/

set_option maxHeartbeats 4000000 in
/-- THE RESULT BUFFER at the return holds the three layers nested, of the argument arrays. -/
theorem result : W6 m ρ c (Proc.devRef .tc main_v0_0) = (Cert.KTerms.layer3 (m ((c : Thread nD τ).loc main_arg10)) (Cert.KTerms.layer2 (m ((c : Thread nD τ).loc main_arg10)) (Cert.KTerms.layer1 (m ((c : Thread nD τ).loc main_arg10)) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9))) := by
  refine (W6_arr m ρ c 6).trans ?_
  rw [Cert.Region2.final (V5 m ρ) c]
  rw [show V5 m ρ c main_call0_v42 = _ from W5_v42 m ρ c, show V5 m ρ c main_call0_v12 = _ from W5_v12 m ρ c,
    show V5 m ρ c main_call0_v32 = _ from W5_v32 m ρ c, show V5 m ρ c main_call0_v43 = _ from W5_v43 m ρ c,
    show V5 m ρ c main_call0_v45 = _ from W5_v45 m ρ c, show V5 m ρ c main_call0_v44 = _ from W5_v44 m ρ c]
  try rfl

end Cert.KernelValue

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.RefLayers.lean ====
/-
  The reference's three layers are the layer functions.

  The reference divides each node's edge or neighbour sum by the node's divisor d (the larger of its in-degree and 1),
  while the kernel multiplies it by the reciprocal 1 / d, computed once. Over the extended reals, for d ≥ 1 (so d ≠ 0)
  both are s · d⁻¹: the quotient s / d is s · d⁻¹ by definition, and 1 / d = 1 · d⁻¹ = d⁻¹. No finiteness is needed:
  the identity holds at d = +∞ as well, and at any s. The reference also adds the bias before the root term where the
  kernel adds it after; addition of extended reals is commutative and associative. The roundings of the weights to
  bf16 are the identity at the exact values, a `dot_general` is the plain sum over the contracted axis, and a
  `broadcast_in_dim` reads its operand at the matching coordinates.
-/
import proofs.«153122_j36988258353722_2_alg».proof.ReferenceIdeal
import proofs.«153122_j36988258353722_2_alg».proof.Proof.Gen.ReferenceIdeal
import proofs.«153122_j36988258353722_2_alg».proof.Proof.LayerFns
import proofs.«153122_j36988258353722_2_alg».proof.Proof.LibDotSums
import proofs.«153122_j36988258353722_2_alg».proof.Proof.LibColumnLayout
import proofs.«153122_j36988258353722_2_alg».proof.Proof.LibBroadcastInDim
import proofs.«153122_j36988258353722_2_alg».proof.Proof.LibBiasRow
import Idealize.ShloMosaic.Lib.ValueLayout
import Idealize.ShloMosaic.Lib.IdealHost

open scoped BigOperators

noncomputable section

namespace Cert.RefLayers

open Cert.ReferenceIdeal Cert.ReferenceIdeal.Gen Idealize.ShloMosaic Idealize.ShloMosaic.ValueIdx

/-- Multiplying by the reciprocal of a divisor that is at least one is dividing by it. -/
theorem mul_recip (s d : EReal) (hd : 1 ≤ d) : s * Ideal.div 1 d = Ideal.div s d := by
  have h0 : d ≠ 0 := fun h => absurd (h ▸ hd) (not_le.mpr zero_lt_one)
  unfold Ideal.div
  rw [if_neg h0, if_neg h0, one_mul]

/-- A per-node number repeated along the node's 256 features. -/
abbrev spread (d : FVec Ideal S50000 .f32) : FVec Ideal S50000x256 .f32 :=
  broadcastInDim S50000x256 ![0, 1] bcast_S50000x1_S50000x256_0_1 (broadcastInDim S50000x1 ![0] bcast_S50000_S50000x1_0 d)

/-- A bias vector repeated down the 50000 nodes. -/
abbrev biasAll (b : FVec Ideal S256 .f32) : FVec Ideal S50000x256 .f32 :=
  broadcastInDim S50000x256 ![0, 1] bcast_S1x256_S50000x256_0_1 (broadcastInDim S1x256 ![1] bcast_S256_S1x256_1 b)

/-- The reference's matrix product of node features with a weight matrix. -/
abbrev refDot (x : FVec Ideal S50000x256 .f32) (w : FVec Ideal S256x256 .f32) : FVec Ideal S50000x256 .f32 :=
  Host.dotGeneral dot_S50000x256_S256x256_S50000x256_1_0_0_1_n_n none x w

theorem spread_apply (d : FVec Ideal S50000 .f32) (p : Fin 50000) (k : Fin 256) : spread d (ix2 p k) = d (ix1 p) := by
  unfold spread
  rw [Cert.BroadcastInDim.rows_apply, Cert.BroadcastInDim.column_apply]

theorem biasAll_apply (b : FVec Ideal S256 .f32) (p : Fin 50000) (q : Fin 256) : biasAll b (ix2 p q) = b (ix1 q) := by
  unfold biasAll
  rw [Cert.BiasRow.down_apply, Cert.BiasRow.row_apply]

theorem refDot_apply (x : FVec Ideal S50000x256 .f32) (w : FVec Ideal S256x256 .f32) (p : Fin 50000) (q : Fin 256) :
    refDot x w (ix2 p q) = ∑ k : Fin 256, (x (ix2 p k) : EReal) * (w (ix2 k q) : EReal) := by
  simp only [refDot, Host.dotGeneral]
  exact Cert.DotSums.dotGeneral_ix2 dot_S50000x256_S256x256_S50000x256_1_0_0_1_n_n none _ rfl rfl rfl rfl rfl rfl rfl rfl x w p q

/-- The reciprocal column the kernel's program computes from the divisors: 1 / d, viewed as a column. -/
abbrev recipCol (d : FVec Ideal S50000 .f32) (hb : S_.BroadcastsInDim S50000 ![]) (h1 : S50000.ShapeCasts S50000x1) :
    FVec Ideal S50000x1 .f32 :=
  shapeCast S50000x1 (Host.divf (broadcastInDim S50000 ![] hb (constant (F := Ideal) S_ .f32 0x3F800000#32)) d) h1

theorem recipCol_apply (d : FVec Ideal S50000 .f32) (hb : S_.BroadcastsInDim S50000 ![]) (h1 : S50000.ShapeCasts S50000x1)
    (p : Fin 50000) : recipCol d hb h1 (ix2 p (0 : Fin 1)) = Ideal.div 1 (d (ix1 p)) := by
  unfold recipCol
  rw [Cert.ColumnLayout.shapeCast_a_a1_apply, hostDivf_apply, Cert.BroadcastInDim.scalar_apply, constant_apply, Ideal.ofBits_one_f32]

/-- THE NODE UPDATE: the reference's operations are the layer function of the kernel program's operands. -/
theorem nodeUpdate_eq (x es : FVec Ideal S50000x256 .f32) (d : FVec Ideal S50000 .f32) (hd : ∀ i, 1 ≤ (d i : EReal))
    (W : FVec Ideal S256x256 .f32) (b : FVec Ideal S256 .f32)
    (hb : S_.BroadcastsInDim S50000 ![]) (h1 : S50000.ShapeCasts S50000x1) (h2 : FTy.bf16.bits < FTy.f32.bits)
    (h3 : S256.ShapeCasts S1x256) :
    Cert.Layers.nodeUpdate x es (recipCol d hb h1) (truncf .bf16 W h2) (shapeCast S1x256 b h3)
      = addf (refDot (addf x (Host.divf es (spread d))) W) (biasAll b) := by
  funext i
  obtain ⟨p, q, rfl⟩ : ∃ (p : Fin 50000) (q : Fin 256), i = ix2 p q := ⟨i 0, i 1, eq_ix2 i⟩
  rw [Cert.Layers.nodeUpdate_ix2, addf_apply, refDot_apply, biasAll_apply, shapeCast_a_1a_apply, recipCol_apply]
  refine congrArg (· + _) (Finset.sum_congr rfl fun k _ => ?_)
  rw [addf_apply, hostDivf_apply, spread_apply, truncf_apply, mul_recip _ _ (hd _)]

/-- A SAGE LAYER: the reference's operations are the layer function of the kernel program's operands. -/
theorem sage_eq (a : FVec Ideal S50000x256 .f32) (d : FVec Ideal S50000 .f32) (hd : ∀ i, 1 ≤ (d i : EReal))
    (x : FVec Ideal S50000x256 .f32) (Wl : FVec Ideal S256x256 .f32) (bl : FVec Ideal S256 .f32) (Wr : FVec Ideal S256x256 .f32)
    (hb : S_.BroadcastsInDim S50000 ![]) (h1 : S50000.ShapeCasts S50000x1) (h2 : FTy.bf16.bits < FTy.f32.bits)
    (h3 : S256.ShapeCasts S1x256) :
    Cert.Layers.sage a (recipCol d hb h1) x (truncf .bf16 Wl h2) (shapeCast S1x256 bl h3) (truncf .bf16 Wr h2)
      = addf (addf (refDot (Host.divf a (spread d)) Wl) (biasAll bl)) (refDot x Wr) := by
  funext i
  obtain ⟨p, q, rfl⟩ : ∃ (p : Fin 50000) (q : Fin 256), i = ix2 p q := ⟨i 0, i 1, eq_ix2 i⟩
  rw [Cert.Layers.sage_ix2, addf_apply, addf_apply, refDot_apply, refDot_apply, biasAll_apply, shapeCast_a_1a_apply,
    recipCol_apply, add_right_comm]
  refine congrArg₂ (· + ·) (congrArg (· + _) (Finset.sum_congr rfl fun k _ => ?_)) (Finset.sum_congr rfl fun k _ => ?_)
  · rw [hostDivf_apply, spread_apply, truncf_apply, mul_recip _ _ (hd _)]
  · rw [truncf_apply]

/-- A SAGE LAYER WITH THE POSITIVE PART: the same, under the maximum with zero. -/
theorem sageRelu_eq (a : FVec Ideal S50000x256 .f32) (d : FVec Ideal S50000 .f32) (hd : ∀ i, 1 ≤ (d i : EReal))
    (x : FVec Ideal S50000x256 .f32) (Wl : FVec Ideal S256x256 .f32) (bl : FVec Ideal S256 .f32) (Wr : FVec Ideal S256x256 .f32)
    (hb : S_.BroadcastsInDim S50000 ![]) (h1 : S50000.ShapeCasts S50000x1) (h2 : FTy.bf16.bits < FTy.f32.bits)
    (h3 : S256.ShapeCasts S1x256) (hz : S_.BroadcastsInDim S50000x256 ![]) :
    Cert.Layers.sageRelu a (recipCol d hb h1) x (truncf .bf16 Wl h2) (shapeCast S1x256 bl h3) (truncf .bf16 Wr h2)
      = maximumf (addf (addf (refDot (Host.divf a (spread d)) Wl) (biasAll bl)) (refDot x Wr))
          (broadcastInDim S50000x256 ![] hz (constant (F := Ideal) S_ .f32 0x00000000#32)) := by
  funext i
  show max (Cert.Layers.sage a (recipCol d hb h1) x (truncf .bf16 Wl h2) (shapeCast S1x256 bl h3) (truncf .bf16 Wr h2) i) _
    = max ((addf (addf (refDot (Host.divf a (spread d)) Wl) (biasAll bl)) (refDot x Wr)) i) _
  rw [sage_eq a d hd x Wl bl Wr hb h1 h2 h3, Cert.BroadcastInDim.scalar_apply, constant_apply]

end Cert.RefLayers

end
-- ==== Proof.RefTerms.lean ====
/-
  The reference's result, layer by layer.

  From the edge list: the destination column (which node each edge points at), the source column (which node it
  leaves, an index below zero counted from the end), the divisor of each node (the larger of its in-degree and 1),
  the aggregation of per-edge rows onto destination nodes (a sum scattered along the destination column into zeros)
  and the rows gathered along the source column. The reference's whole result is then three nested layers; each is, by
  the layer identities, the layer function applied to the aggregation, the reciprocal-divisor column and the previous
  layer's output — the form in which the kernel's program computes it.
-/
import proofs.«153122_j36988258353722_2_alg».proof.Proof.Gen.ReferenceIdeal.Run
import proofs.«153122_j36988258353722_2_alg».proof.Proof.RefLayers

noncomputable section

namespace Cert.RefTerms

open Cert.ReferenceIdeal Cert.ReferenceIdeal.Gen Idealize.ShloMosaic Idealize.ShloMosaic.TcCoe Idealize.SL.Sem
open Idealize.ShloMosaic.ValueIdx

variable (ei : (⟨S2x500000, .i32⟩ : BufTy).Contents (Elt Ideal))

/-- The source node of each edge, as listed. -/
def srcRow : (⟨S500000, .i32⟩ : BufTy).Contents (Elt Ideal) :=
  shapeCast S500000 (extractStridedSlice S1x500000 ![0, 0] ei slices_S2x500000_S1x500000_0_0) shapeCasts_S1x500000_S500000

/-- The destination node of each edge, as listed. -/
def dstRow : (⟨S500000, .i32⟩ : BufTy).Contents (Elt Ideal) :=
  shapeCast S500000 (extractStridedSlice S1x500000 ![1, 0] ei slices_S2x500000_S1x500000_1_0) shapeCasts_S1x500000_S500000

/-- The destination node of each edge, as a column. -/
def dstCol : (⟨S500000x1, .i32⟩ : BufTy).Contents (Elt Ideal) :=
  broadcastInDim S500000x1 ![0] bcast_S500000_S500000x1_0 (dstRow ei)

/-- The source node of each edge as a column, an index below zero counted from the end. -/
def srcCol : (⟨S500000x1, .i32⟩ : BufTy).Contents (Elt Ideal) :=
  broadcastInDim S500000x1 ![0] bcast_S500000_S500000x1_0
    (select (cmpi .slt (srcRow ei) (broadcastInDim S500000 ![] bcast_S_S500000 (constantI S_ 32 0#32)))
      (addi (srcRow ei) (broadcastInDim S500000 ![] bcast_S_S500000 (constantI S_ 32 50000#32))) (srcRow ei))

/-- Each node's divisor: its in-degree (a one scattered per edge into zeros), or one if that is larger. -/
def divisor : FVec Ideal S50000 .f32 :=
  maximumf (Host.scatterAdd scatter_S50000_S500000x1_S500000_n_0_0_1 (broadcastInDim S50000 ![] bcast_S_S50000 (constant (F := Ideal) S_ .f32 0x00000000#32))
      (dstCol ei) (broadcastInDim S500000 ![] bcast_S_S500000 (constant (F := Ideal) S_ .f32 0x3F800000#32)))
    (broadcastInDim S50000 ![] bcast_S_S50000 (constant (F := Ideal) S_ .f32 0x3F800000#32))

/-- Per-edge rows summed onto their destination nodes. -/
def aggregate (u : FVec Ideal S500000x256 .f32) : FVec Ideal S50000x256 .f32 :=
  Host.scatterAdd scatter_S50000x256_S500000x1_S500000x256_1_0_0_1
    (broadcastInDim S50000x256 ![] bcast_S_S50000x256 (constant (F := Ideal) S_ .f32 0x00000000#32)) (dstCol ei) u

/-- Each edge's source node's row. -/
def neighbours (X : FVec Ideal S50000x256 .f32) : FVec Ideal S500000x256 .f32 :=
  Host.gather gather_S50000x256_S500000x1_S500000x256_1_0_n_n_0_1_1256 X (srcCol ei)

/-- A divisor is at least one. -/
theorem divisor_ge (i : S50000.Idx) : 1 ≤ (divisor ei i : EReal) := by
  unfold divisor
  rw [maximumf_apply, Cert.BroadcastInDim.scalar_apply, constant_apply, Ideal.ofBits_one_f32]
  exact le_max_right _ _

theorem colCast : S50000.ShapeCasts S50000x1 := by decide
theorem rowCast : S256.ShapeCasts S1x256 := by decide
theorem bf16Lt : FTy.bf16.bits < FTy.f32.bits := by decide

/-- The reciprocal-divisor column. -/
abbrev recip : FVec Ideal S50000x1 .f32 := Cert.RefLayers.recipCol (divisor ei) bcast_S_S50000 colCast

/-- The node update, as the layer function. -/
def layer1 (x : FVec Ideal S50000x256 .f32) (e : FVec Ideal S500000x256 .f32) (W : FVec Ideal S256x256 .f32) (b : FVec Ideal S256 .f32) :
    FVec Ideal S50000x256 .f32 :=
  Cert.Layers.nodeUpdate x (aggregate ei e) (recip ei) (truncf .bf16 W bf16Lt) (shapeCast S1x256 b rowCast)

/-- The first SAGE layer (with the positive part), as the layer function. -/
def layer2 (X : FVec Ideal S50000x256 .f32) (Wl : FVec Ideal S256x256 .f32) (bl : FVec Ideal S256 .f32) (Wr : FVec Ideal S256x256 .f32) :
    FVec Ideal S50000x256 .f32 :=
  Cert.Layers.sageRelu (aggregate ei (neighbours ei X)) (recip ei) X (truncf .bf16 Wl bf16Lt) (shapeCast S1x256 bl rowCast) (truncf .bf16 Wr bf16Lt)

/-- The second SAGE layer, as the layer function. -/
def layer3 (X : FVec Ideal S50000x256 .f32) (Wl : FVec Ideal S256x256 .f32) (bl : FVec Ideal S256 .f32) (Wr : FVec Ideal S256x256 .f32) :
    FVec Ideal S50000x256 .f32 :=
  Cert.Layers.sage (aggregate ei (neighbours ei X)) (recip ei) X (truncf .bf16 Wl bf16Lt) (shapeCast S1x256 bl rowCast) (truncf .bf16 Wr bf16Lt)

/-- THE REFERENCE'S RESULT is the three layers nested, of the argument arrays. -/
theorem result_eq (m : (ℓ : Loc nD τ sig) → Buf (Elt Ideal) ℓ) (c : Dev nD) :
    Cert.ReferenceIdeal.Value.res_main_v71 (F := Ideal) m c
      = layer3 (m ((c.tc : Thread nD τ).loc main_arg10))
          (layer2 (m ((c.tc : Thread nD τ).loc main_arg10))
            (layer1 (m ((c.tc : Thread nD τ).loc main_arg10)) (m ((c.tc : Thread nD τ).loc main_arg0)) (m ((c.tc : Thread nD τ).loc main_arg1))
              (m ((c.tc : Thread nD τ).loc main_arg2)) (m ((c.tc : Thread nD τ).loc main_arg3)))
            (m ((c.tc : Thread nD τ).loc main_arg4)) (m ((c.tc : Thread nD τ).loc main_arg5)) (m ((c.tc : Thread nD τ).loc main_arg6)))
          (m ((c.tc : Thread nD τ).loc main_arg7)) (m ((c.tc : Thread nD τ).loc main_arg8)) (m ((c.tc : Thread nD τ).loc main_arg9)) := by
  unfold layer3 layer2 layer1
  rw [Cert.RefLayers.sage_eq _ _ (divisor_ge _), Cert.RefLayers.sageRelu_eq _ _ (divisor_ge _) (hz := bcast_S_S50000x256),
    Cert.RefLayers.nodeUpdate_eq _ _ _ (divisor_ge _)]
  rfl

end Cert.RefTerms

end
-- ==== Proof.Twin.lean ====
/-
  The two programs' host-side quantities are the same functions of the edge list.

  Both programs derive the destination column, the source column, the divisors, the aggregation and the gathered rows
  from the edge list by the same operations with the same dimension numbers; each program only names its shapes and its
  records of dimension numbers for itself. Unfolding the names on both sides leaves one term.
-/
import proofs.«153122_j36988258353722_2_alg».proof.Proof.KTerms
import proofs.«153122_j36988258353722_2_alg».proof.Proof.RefTerms

noncomputable section

namespace Cert.Twin

open Idealize.ShloMosaic

-- the scatter, the gather and the layer functions are compared as wholes, never opened
attribute [local irreducible] Host.scatterAdd Host.gather Cert.Layers.nodeUpdate Cert.Layers.sage Cert.Layers.sageRelu

variable (ei : (⟨Cert.KernelIdeal.S2x500000, .i32⟩ : BufTy).Contents (Elt Ideal))

theorem srcRow_eq : Cert.KTerms.srcRow ei = Cert.RefTerms.srcRow ei := rfl
theorem dstRow_eq : Cert.KTerms.dstRow ei = Cert.RefTerms.dstRow ei := rfl
theorem dstCol_eq : Cert.KTerms.dstCol ei = Cert.RefTerms.dstCol ei := rfl
theorem srcCol_eq : Cert.KTerms.srcCol ei = Cert.RefTerms.srcCol ei := rfl

theorem scatterFlat_eq : Cert.KernelIdeal.scatter_S50000_S500000x1_S500000_n_0_0_1 = Cert.ReferenceIdeal.scatter_S50000_S500000x1_S500000_n_0_0_1 := rfl
theorem scatterRows_eq : Cert.KernelIdeal.scatter_S50000x256_S500000x1_S500000x256_1_0_0_1 = Cert.ReferenceIdeal.scatter_S50000x256_S500000x1_S500000x256_1_0_0_1 := rfl
theorem gatherRows_eq : Cert.KernelIdeal.gather_S50000x256_S500000x1_S500000x256_1_0_n_n_0_1_1256 = Cert.ReferenceIdeal.gather_S50000x256_S500000x1_S500000x256_1_0_n_n_0_1_1256 := rfl

theorem divisor_eq : Cert.KTerms.divisor ei = Cert.RefTerms.divisor ei := by
  unfold Cert.KTerms.divisor Cert.RefTerms.divisor
  rw [scatterFlat_eq, dstCol_eq]

theorem recip_eq : Cert.KTerms.recip ei = Cert.RefTerms.recip ei := by
  unfold Cert.KTerms.recip Cert.RefTerms.recip Cert.RefLayers.recipCol
  rw [divisor_eq]

theorem aggregate_eq (u : FVec Ideal Cert.KernelIdeal.S500000x256 .f32) : Cert.KTerms.aggregate ei u = Cert.RefTerms.aggregate ei u := by
  unfold Cert.KTerms.aggregate Cert.RefTerms.aggregate
  rw [scatterRows_eq, dstCol_eq]

theorem neighbours_eq (X : FVec Ideal Cert.KernelIdeal.S50000x256 .f32) : Cert.KTerms.neighbours ei X = Cert.RefTerms.neighbours ei X := by
  unfold Cert.KTerms.neighbours Cert.RefTerms.neighbours
  rw [gatherRows_eq, srcCol_eq]

theorem layer1_eq (x : FVec Ideal Cert.KernelIdeal.S50000x256 .f32) (e : FVec Ideal Cert.KernelIdeal.S500000x256 .f32)
    (W : FVec Ideal Cert.KernelIdeal.S256x256 .f32) (b : FVec Ideal Cert.KernelIdeal.S256 .f32) :
    Cert.KTerms.layer1 ei x e W b = Cert.RefTerms.layer1 ei x e W b := by
  unfold Cert.KTerms.layer1 Cert.RefTerms.layer1
  rw [aggregate_eq, recip_eq]

theorem layer2_eq (X : FVec Ideal Cert.KernelIdeal.S50000x256 .f32) (Wl : FVec Ideal Cert.KernelIdeal.S256x256 .f32)
    (bl : FVec Ideal Cert.KernelIdeal.S256 .f32) (Wr : FVec Ideal Cert.KernelIdeal.S256x256 .f32) :
    Cert.KTerms.layer2 ei X Wl bl Wr = Cert.RefTerms.layer2 ei X Wl bl Wr := by
  unfold Cert.KTerms.layer2 Cert.RefTerms.layer2
  rw [neighbours_eq, aggregate_eq, recip_eq]

theorem layer3_eq (X : FVec Ideal Cert.KernelIdeal.S50000x256 .f32) (Wl : FVec Ideal Cert.KernelIdeal.S256x256 .f32)
    (bl : FVec Ideal Cert.KernelIdeal.S256 .f32) (Wr : FVec Ideal Cert.KernelIdeal.S256x256 .f32) :
    Cert.KTerms.layer3 ei X Wl bl Wr = Cert.RefTerms.layer3 ei X Wl bl Wr := by
  unfold Cert.KTerms.layer3 Cert.RefTerms.layer3
  rw [neighbours_eq, aggregate_eq, recip_eq]

end Cert.Twin

end
-- ==== Proof.lean ====
/-
  The certificate of a three-layer message-passing block on a graph of 50000 nodes and 500000 edges, 256 features.

  Both programs compute, from the edge list, each node's divisor d (the larger of its in-degree and 1) and then three
  layers: a node update (the node's features plus the mean of its incoming edges' features, through a weight matrix,
  plus a bias) and two SAGE layers (the mean of the neighbours' features through one weight matrix, the node's own
  features through another, plus a bias; the positive part after the first). The reference forms each mean as a sum
  divided by d. The kernel's program computes the column of reciprocals 1 / d once on the host and runs each layer as a
  tiled region (50 tiles of 1000 node rows) that multiplies the sum by the reciprocal, rounds to bf16 on the way into
  its matrix products, and adds the bias last.

  At the exact values the two agree entry by entry: the roundings are the identity; s · (1 / d) = s / d for every
  extended real s because d ≥ 1 is not zero (no finiteness is used, so the precondition is never opened); the order in
  which the bias and the root term are added does not matter; a tile's matrix product into a zero accumulator and the
  host's `dot_general` are the same sum over the 256 input features; the tiles partition the rows. The scatter that
  aggregates and the gather that reads neighbours are the same operations on both sides and are never opened.

  The three frames: the two kernel programs' by their frame runs; the reference's by its run with the result
  dropped. The idealization rewrote nothing, so there is nothing to preserve.
-/
import proofs.«153122_j36988258353722_2_alg».proof.Defs
import proofs.«153122_j36988258353722_2_alg».proof.Proof.Gen.Kernel
import proofs.«153122_j36988258353722_2_alg».proof.Proof.Gen.KernelIdeal
import proofs.«153122_j36988258353722_2_alg».proof.Proof.Gen.ReferenceIdeal
import proofs.«153122_j36988258353722_2_alg».proof.Proof.Gen.Pre_finite_inputs
import proofs.«153122_j36988258353722_2_alg».proof.Proof.Gen.ReferenceIdeal.Run
import proofs.«153122_j36988258353722_2_alg».proof.Proof.KernelFrameP
import proofs.«153122_j36988258353722_2_alg».proof.Proof.KernelIdealFrameP
import proofs.«153122_j36988258353722_2_alg».proof.Proof.KernelRun
import proofs.«153122_j36988258353722_2_alg».proof.Proof.KernelValue
import proofs.«153122_j36988258353722_2_alg».proof.Proof.RefTerms
import proofs.«153122_j36988258353722_2_alg».proof.Proof.Twin
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the three layers nested, of arguments that agree. -/
theorem algebraic : Cert.algebraic_KernelIdeal_ReferenceIdeal := by
  intro m ρ m' ρ' _ hagree
  refine ⟨fun c => (Cert.KTerms.layer3 (m ((c.tc : Thread Cert.KernelIdeal.nD Cert.KernelIdeal.τ).loc Cert.KernelIdeal.main_arg10)) (Cert.KTerms.layer2 (m ((c.tc : Thread Cert.KernelIdeal.nD Cert.KernelIdeal.τ).loc Cert.KernelIdeal.main_arg10)) (Cert.KTerms.layer1 (m ((c.tc : Thread Cert.KernelIdeal.nD Cert.KernelIdeal.τ).loc Cert.KernelIdeal.main_arg10)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelRun.run_result (F := Ideal) m ρ)
    obtain ⟨h0, ha0, ha1, ha2, ha3, ha4, ha5, ha6, ha7, ha8, ha9, ha10⟩ := h c
    exact ⟨h0.trans (Cert.KernelValue.result m ρ c), ha1, ha0, ha1, ha2, ha3, ha4, ha5, ha6, ha7, ha8, ha9, ha10⟩
  · refine (θ_run Cert.ReferenceIdeal.defs _ _).mono (fun r h c => ?_) (Cert.ReferenceIdeal.Value.run (F := Ideal) m' ρ')
    obtain ⟨hres, hb1, rest⟩ := h c
    obtain ⟨e0, e1, e2, e3, e4, e5, e6, e7, e8, e9, e10⟩ := hagree c
    refine ⟨hres.trans ?_, hb1.trans e1, rest⟩
    rw [Cert.RefTerms.result_eq, e0, e1, e2, e3, e4, e5, e6, e7, e8, e9, e10]
    symm
    beta_reduce
    rw [Cert.Twin.layer3_eq, Cert.Twin.layer2_eq, Cert.Twin.layer1_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
